-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S3x64x64 .f32) (main_arg6 : FVec F S3x64 .f32) (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S3x64x64 .f32) (main_arg6 : FVec F S3x64 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x3200000 : Shape := ⟨2, ![1, 3200000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 92
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x32, .f32⟩
  | .hbm, ⟨8, _⟩ => ⟨S32, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x128, .bf16⟩
  | .hbm, ⟨14, _⟩ => ⟨S128x64, .bf16⟩
  | .hbm, ⟨15, _⟩ => ⟨S1x64, .f32⟩
  | .hbm, ⟨16, _⟩ => ⟨S100000x64, .bf16⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .bf16⟩
  | .hbm, ⟨26, _⟩ => ⟨S3200000x64, .f32⟩
  | .hbm, ⟨27, _⟩ => ⟨S3200000x1, .f32⟩
  | .hbm, ⟨28, _⟩ => ⟨S3200000x64, .f32⟩
  | .hbm, ⟨29, _⟩ => ⟨S3200000x64, .f32⟩
  | .hbm, ⟨30, _⟩ => ⟨S_, .f32⟩
  | .hbm, ⟨31, _⟩ => ⟨S100000x64, .f32⟩
  | .hbm, ⟨32, _⟩ => ⟨S3200000x1, .i32⟩
  | .hbm, ⟨33, _⟩ => ⟨S100000x64, .f32⟩
  | .hbm, ⟨34, _⟩ => ⟨S1x64x64, .f32⟩
  | .hbm, ⟨35, _⟩ => ⟨S64x64, .f32⟩
  | .hbm, ⟨36, _⟩ => ⟨S64x64, .bf16⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S100000x64, .bf16⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x64, .bf16⟩
  | .hbm, ⟨50, _⟩ => ⟨S3200000x64, .f32⟩
  | .hbm, ⟨51, _⟩ => ⟨S3200000x1, .f32⟩
  | .hbm, ⟨52, _⟩ => ⟨S3200000x64, .f32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S1x64x64, .f32⟩
  | .hbm, ⟨59, _⟩ => ⟨S64x64, .f32⟩
  | .hbm, ⟨60, _⟩ => ⟨S64x64, .bf16⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S100000x64, .bf16⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x64, .bf16⟩
  | .hbm, ⟨74, _⟩ => ⟨S3200000x64, .f32⟩
  | .hbm, ⟨75, _⟩ => ⟨S3200000x1, .f32⟩
  | .hbm, ⟨76, _⟩ => ⟨S3200000x64, .f32⟩
  | .hbm, ⟨77, _⟩ => ⟨S3200000x64, .f32⟩
  | .hbm, ⟨78, _⟩ => ⟨S_, .f32⟩
  | .hbm, ⟨79, _⟩ => ⟨S100000x64, .f32⟩
  | .hbm, ⟨80, _⟩ => ⟨S3200000x1, .i32⟩
  | .hbm, ⟨81, _⟩ => ⟨S100000x64, .f32⟩
  | .hbm, ⟨82, _⟩ => ⟨S1x64x64, .f32⟩
  | .hbm, ⟨83, _⟩ => ⟨S64x64, .f32⟩
  | .hbm, ⟨84, _⟩ => ⟨S64x64, .bf16⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S100000x64, .bf16⟩
  | .hbm, ⟨89, _⟩ => ⟨S64x32, .bf16⟩
  | .hbm, ⟨90, _⟩ => ⟨S1x32, .f32⟩
  | .hbm, ⟨91, _⟩ => ⟨S100000x32, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S1x64, .f32⟩
  | .local _ .vmem, ⟨4, _⟩ => ⟨S10000x64, .bf16⟩
  | .local _ .vmem, ⟨5, _⟩ => ⟨S10000x64, .bf16⟩
  | .local _ .vmem, ⟨6, _⟩ => ⟨S10000x64, .bf16⟩
  | .local _ .vmem, ⟨7, _⟩ => ⟨S10000x64, .bf16⟩
  | .local _ .vmem, ⟨8, _⟩ => ⟨S10000x64, .f32⟩
  | .local _ .vmem, ⟨9, _⟩ => ⟨S10000x64, .f32⟩
  | .local _ .vmem, ⟨10, _⟩ => ⟨S64x64, .bf16⟩
  | .local _ .vmem, ⟨11, _⟩ => ⟨S1x64, .f32⟩
  | .local _ .vmem, ⟨12, _⟩ => ⟨S10000x64, .bf16⟩
  | .local _ .vmem, ⟨13, _⟩ => ⟨S10000x64, .bf16⟩
  | .local _ .vmem, ⟨14, _⟩ => ⟨S10000x64, .bf16⟩
  | .local _ .vmem, ⟨15, _⟩ => ⟨S10000x64, .bf16⟩
  | .local _ .vmem, ⟨16, _⟩ => ⟨S10000x64, .f32⟩
  | .local _ .vmem, ⟨17, _⟩ => ⟨S10000x64, .f32⟩
  | .local _ .vmem, ⟨18, _⟩ => ⟨S64x64, .bf16⟩
  | .local _ .vmem, ⟨19, _⟩ => ⟨S1x64, .f32⟩
  | .local _ .vmem, ⟨20, _⟩ => ⟨S10000x64, .bf16⟩
  | .local _ .vmem, ⟨21, _⟩ => ⟨S10000x64, .bf16⟩
  | .local _ .vmem, ⟨22, _⟩ => ⟨S10000x64, .bf16⟩
  | .local _ .vmem, ⟨23, _⟩ => ⟨S10000x64, .bf16⟩
  | .local _ .vmem, ⟨24, _⟩ => ⟨S10000x64, .f32⟩
  | .local _ .vmem, ⟨25, _⟩ => ⟨S10000x64, .f32⟩
  | .local _ .vmem, ⟨26, _⟩ => ⟨S64x64, .bf16⟩
  | .local _ .vmem, ⟨27, _⟩ => ⟨S1x64, .f32⟩
  | .local _ .vmem, ⟨28, _⟩ => ⟨S10000x64, .bf16⟩
  | .local _ .vmem, ⟨29, _⟩ => ⟨S10000x64, .bf16⟩
  | .local _ .vmem, ⟨30, _⟩ => ⟨S10000x64, .bf16⟩
  | .local _ .vmem, ⟨31, _⟩ => ⟨S10000x64, .bf16⟩
  | .local _ .vmem, ⟨32, _⟩ => ⟨S64x32, .bf16⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_4 : Ref sig .tc := ⟨.hbm, 65, rfl⟩
abbrev main_v50 : Ref sig .tc := ⟨.hbm, 66, rfl⟩
abbrev main_v51 : Ref sig .tc := ⟨.hbm, 67, rfl⟩
abbrev main_c_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bitsLt_bf16_f32 : FTy.bits .bf16 < FTy.bits .f32
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .bf16 = 32 ∨ (Rect.block (s := S100000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .bf16 = 32 ∨ (Rect.block (s := S100000x64) S10000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .bf16 = 32 ∨ (Rect.block (s := S100000x64) S10000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .bf16 = 32 ∨ (Rect.block (s := S100000x64) S10000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .bf16 = 32 ∨ (Rect.block (s := S100000x64) S10000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .bf16 = 32 ∨ (Rect.block (s := S64x32) S64x32.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v4) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S100000x64 : Shape := ⟨2, ![100000, 64]⟩
abbrev S1x64 : Shape := ⟨2, ![1, 64]⟩
abbrev S1x3200000 : Shape := ⟨2, ![1, 3200000]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S100000x32 : Shape := ⟨2, ![100000, 32]⟩
abbrev S1x32 : Shape := ⟨2, ![1, 32]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S3200000x1, .f32⟩
  | .hbm, ⟨27, _⟩ => ⟨S3200000x64, .f32⟩
  | .hbm, ⟨28, _⟩ => ⟨S3200000x64, .f32⟩
  | .hbm, ⟨29, _⟩ => ⟨S_, .f32⟩
  | .hbm, ⟨30, _⟩ => ⟨S100000x64, .f32⟩
  | .hbm, ⟨31, _⟩ => ⟨S3200000x1, .i32⟩
  | .hbm, ⟨32, _⟩ => ⟨S100000x64, .f32⟩
  | .hbm, ⟨33, _⟩ => ⟨S100000x64, .f32⟩
  | .hbm, ⟨34, _⟩ => ⟨S1x64x64, .f32⟩
  | .hbm, ⟨35, _⟩ => ⟨S64x64, .f32⟩
  | .hbm, ⟨36, _⟩ => ⟨S100000x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S3200000x1, .f32⟩
  | .hbm, ⟨55, _⟩ => ⟨S3200000x64, .f32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x64, .f32⟩
  | .hbm, ⟨62, _⟩ => ⟨S1x64x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x64, .f32⟩
  | .hbm, ⟨82, _⟩ => ⟨S3200000x1, .f32⟩
  | .hbm, ⟨83, _⟩ => ⟨S3200000x64, .f32⟩
  | .hbm, ⟨84, _⟩ => ⟨S3200000x64, .f32⟩
  | .hbm, ⟨85, _⟩ => ⟨S_, .f32⟩
  | .hbm, ⟨86, _⟩ => ⟨S100000x64, .f32⟩
  | .hbm, ⟨87, _⟩ => ⟨S3200000x1, .i32⟩
  | .hbm, ⟨88, _⟩ => ⟨S100000x64, .f32⟩
  | .hbm, ⟨89, _⟩ => ⟨S100000x64, .f32⟩
  | .hbm, ⟨90, _⟩ => ⟨S1x64x64, .f32⟩
  | .hbm, ⟨91, _⟩ => ⟨S64x64, .f32⟩
  | .hbm, ⟨92, _⟩ => ⟨S100000x64, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩
abbrev main_c_1 : Ref sig .tc := ⟨.hbm, 45, rfl⟩
abbrev main_v31 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call1_cst : Ref sig .tc := ⟨.hbm, 70, rfl⟩
abbrev main_call1_v0 : Ref sig .tc := ⟨.hbm, 71, rfl⟩
abbrev main_v53 : Ref sig .tc := ⟨.hbm, 72, rfl⟩
abbrev main_c_4 : Ref sig .tc := ⟨.hbm, 73, rfl⟩
abbrev main_v54 : Ref sig .tc := ⟨.hbm, 74, rfl⟩
abbrev main_v55 : Ref sig .tc := ⟨.hbm, 75, rfl⟩
abbrev main_c_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call2_cst : Ref sig .tc := ⟨.hbm, 98, rfl⟩
abbrev main_call2_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KRun.lean ====
/-
  The idealized kernel program's run with its RESULT named: every weakly fair execution of @main terminates, nothing
  faulting, the argument arrays end as launched, and the result array ends at what the last launch's write-backs leave
  of it — the contents `W10` of the last segment boundary, read at the result's buffer. @main is ten segments (a stretch
  of host operations, then a kernel launch, five times); the contents at each boundary are a fold from the launch memory.
-/
import proofs.«122889_j89550068122357_1_alg».proof.Proof.Gen.KernelIdeal.Frame

set_option maxRecDepth 16384

noncomputable section

namespace Cert.KernelIdeal.GnnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' chain from the launch memory to the last boundary, whose contents every unscoped buffer of
    the final state holds; the result's buffer is one of them, and each argument's contents walk back to the launch. -/
theorem run_result : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.GnnRun

end
-- ==== Proof.KHost.lean ====
/-
  The host operations between the kernel launches, each stretch read as a function of the buffer contents W it starts
  from. Between two launches the host program
    * turns negative source node numbers into numbers counted from the end, gathers the source rows of the current
      features, scales row e by edge weight e, and scatter-adds row e into its destination node's row (from zero):
      the aggregate `aggK`;
    * cuts the next layer's weight matrix and bias out of the stacked arrays;
  and leaves every other buffer as it was. Before the first launch it splits the edge list into sources and
  destinations and lays the input bias out as one row; before the last it lays the output bias out as one row.
  On extended reals a change of float format is the identity, so the conversions to and from the short format are kept
  only because the program spells them.
-/
import proofs.«122889_j89550068122357_1_alg».proof.Proof.Gen.KernelIdeal.Launch
import Idealize.ShloMosaic.Lib.StableHlo.Run
import Idealize.ShloMosaic.PureOps.Ideal

noncomputable section

namespace Cert.KernelIdeal.GnnHost

open Cert.KernelIdeal Cert.KernelIdeal.Gen Idealize.ShloMosaic Idealize.ShloMosaic.TcCoe Idealize.SL.Sem Idealize.ShloMosaic.StableHlo

/-- The edges' source nodes: row 0 of the edge list. -/
def srcOf (ei : (⟨S2x3200000, .i32⟩ : BufTy).Contents (Elt Ideal)) : (⟨S3200000, .i32⟩ : BufTy).Contents (Elt Ideal) :=
  shapeCast S3200000 (extractStridedSlice S1x3200000 ![0, 0] ei slices_S2x3200000_S1x3200000_0_0) shapeCasts_S1x3200000_S3200000
/-- The edges' destination nodes: row 1 of the edge list. -/
def dstOf (ei : (⟨S2x3200000, .i32⟩ : BufTy).Contents (Elt Ideal)) : (⟨S3200000, .i32⟩ : BufTy).Contents (Elt Ideal) :=
  shapeCast S3200000 (extractStridedSlice S1x3200000 ![1, 0] ei slices_S2x3200000_S1x3200000_1_0) shapeCasts_S1x3200000_S3200000

/-- The aggregate of the features h over the edges: the source rows gathered (a negative source number counted from the
    end), row e scaled by edge weight e, and scatter-added into the destination rows of a zero matrix. -/
def aggK (h : (⟨S100000x64, .bf16⟩ : BufTy).Contents (Elt Ideal)) (src dst : (⟨S3200000, .i32⟩ : BufTy).Contents (Elt Ideal)) (ew : (⟨S3200000, .f32⟩ : BufTy).Contents (Elt Ideal)) : (⟨S100000x64, .f32⟩ : BufTy).Contents (Elt Ideal) :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf (F := Ideal) (extf (F := Ideal) .f32 (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))) bitsLt_bf16_f32)
      (broadcastInDim S3200000x64 ![0, 1] bcast_S3200000x1_S3200000x64_0_1 (broadcastInDim S3200000x1 ![0] bcast_S3200000_S3200000x1_0 ew)))

/-- Layer 0's weight matrix: slab 0 of the stacked weights, as a 64 × 64 matrix. -/
def wOf0 (w : (⟨S3x64x64, .f32⟩ : BufTy).Contents (Elt Ideal)) : (⟨S64x64, .bf16⟩ : BufTy).Contents (Elt Ideal) :=
  truncf (F := Ideal) .bf16 (shapeCast S64x64 (extractStridedSlice S1x64x64 ![0, 0, 0] w slices_S3x64x64_S1x64x64_0_0_0) shapeCasts_S1x64x64_S64x64) bitsLt_bf16_f32
/-- Layer 0's bias: row 0 of the stacked biases, as a vector and then as a one-row matrix. -/
def bOf0 (b : (⟨S3x64, .f32⟩ : BufTy).Contents (Elt Ideal)) : (⟨S1x64, .f32⟩ : BufTy).Contents (Elt Ideal) :=
  shapeCast S1x64 (shapeCast S64 (extractStridedSlice S1x64 ![0, 0] b slices_S3x64_S1x64_0_0) shapeCasts_S1x64_S64) shapeCasts_S64_S1x64
/-- Layer 1's weight matrix: slab 1 of the stacked weights, as a 64 × 64 matrix. -/
def wOf1 (w : (⟨S3x64x64, .f32⟩ : BufTy).Contents (Elt Ideal)) : (⟨S64x64, .bf16⟩ : BufTy).Contents (Elt Ideal) :=
  truncf (F := Ideal) .bf16 (shapeCast S64x64 (extractStridedSlice S1x64x64 ![1, 0, 0] w slices_S3x64x64_S1x64x64_1_0_0) shapeCasts_S1x64x64_S64x64) bitsLt_bf16_f32
/-- Layer 1's bias: row 1 of the stacked biases, as a vector and then as a one-row matrix. -/
def bOf1 (b : (⟨S3x64, .f32⟩ : BufTy).Contents (Elt Ideal)) : (⟨S1x64, .f32⟩ : BufTy).Contents (Elt Ideal) :=
  shapeCast S1x64 (shapeCast S64 (extractStridedSlice S1x64 ![1, 0] b slices_S3x64_S1x64_1_0) shapeCasts_S1x64_S64) shapeCasts_S64_S1x64
/-- Layer 2's weight matrix: slab 2 of the stacked weights, as a 64 × 64 matrix. -/
def wOf2 (w : (⟨S3x64x64, .f32⟩ : BufTy).Contents (Elt Ideal)) : (⟨S64x64, .bf16⟩ : BufTy).Contents (Elt Ideal) :=
  truncf (F := Ideal) .bf16 (shapeCast S64x64 (extractStridedSlice S1x64x64 ![2, 0, 0] w slices_S3x64x64_S1x64x64_2_0_0) shapeCasts_S1x64x64_S64x64) bitsLt_bf16_f32
/-- Layer 2's bias: row 2 of the stacked biases, as a vector and then as a one-row matrix. -/
def bOf2 (b : (⟨S3x64, .f32⟩ : BufTy).Contents (Elt Ideal)) : (⟨S1x64, .f32⟩ : BufTy).Contents (Elt Ideal) :=
  shapeCast S1x64 (shapeCast S64 (extractStridedSlice S1x64 ![2, 0] b slices_S3x64_S1x64_2_0) shapeCasts_S1x64_S64) shapeCasts_S64_S1x64

variable (W : Valuation τ sig (Elt Ideal))

/-! ## Before the first launch -/

theorem src_h0 : StableHlo.after (hostOps0 (F := Ideal)) W (Proc.devRef .tc main_v1) = srcOf (W (Proc.devRef .tc main_arg1)) := by
  after_results <;> rfl
theorem dst_h0 : StableHlo.after (hostOps0 (F := Ideal)) W (Proc.devRef .tc main_v3) = dstOf (W (Proc.devRef .tc main_arg1)) := by
  after_results <;> rfl
theorem x_h0 : StableHlo.after (hostOps0 (F := Ideal)) W (Proc.devRef .tc main_v4) = truncf (F := Ideal) .bf16 (W (Proc.devRef .tc main_arg0)) bitsLt_bf16_f32 := by
  after_results <;> rfl
theorem w_h0 : StableHlo.after (hostOps0 (F := Ideal)) W (Proc.devRef .tc main_v5) = truncf (F := Ideal) .bf16 (W (Proc.devRef .tc main_arg3)) bitsLt_bf16_f32 := by
  after_results <;> rfl
theorem b_h0 : StableHlo.after (hostOps0 (F := Ideal)) W (Proc.devRef .tc main_v6) = shapeCast S1x64 (W (Proc.devRef .tc main_arg4)) shapeCasts_S64_S1x64 := by
  after_results <;> rfl
theorem keep0_arg2 : StableHlo.after (hostOps0 (F := Ideal)) W (Proc.devRef .tc main_arg2) = W (Proc.devRef .tc main_arg2) := by after_results
theorem keep0_arg5 : StableHlo.after (hostOps0 (F := Ideal)) W (Proc.devRef .tc main_arg5) = W (Proc.devRef .tc main_arg5) := by after_results
theorem keep0_arg6 : StableHlo.after (hostOps0 (F := Ideal)) W (Proc.devRef .tc main_arg6) = W (Proc.devRef .tc main_arg6) := by after_results
theorem keep0_arg7 : StableHlo.after (hostOps0 (F := Ideal)) W (Proc.devRef .tc main_arg7) = W (Proc.devRef .tc main_arg7) := by after_results
theorem keep0_arg8 : StableHlo.after (hostOps0 (F := Ideal)) W (Proc.devRef .tc main_arg8) = W (Proc.devRef .tc main_arg8) := by after_results

/-! ## Between the launches: one aggregate, one weight matrix, one bias each -/

set_option maxHeartbeats 4000000 in
theorem agg1 : StableHlo.after (hostOps1 (F := Ideal)) W (Proc.devRef .tc main_v21)
    = aggK (W (Proc.devRef .tc main_v7)) (W (Proc.devRef .tc main_v1)) (W (Proc.devRef .tc main_v3)) (W (Proc.devRef .tc main_arg2)) := by
  after_results_simp <;> rfl
theorem weight1 : StableHlo.after (hostOps1 (F := Ideal)) W (Proc.devRef .tc main_v24) = wOf0 (W (Proc.devRef .tc main_arg5)) := by
  after_results <;> rfl
theorem bias1 : StableHlo.after (hostOps1 (F := Ideal)) W (Proc.devRef .tc main_v27) = bOf0 (W (Proc.devRef .tc main_arg6)) := by
  after_results <;> rfl
theorem keep1_v7 : StableHlo.after (hostOps1 (F := Ideal)) W (Proc.devRef .tc main_v7) = W (Proc.devRef .tc main_v7) := by after_results
theorem keep1_v1 : StableHlo.after (hostOps1 (F := Ideal)) W (Proc.devRef .tc main_v1) = W (Proc.devRef .tc main_v1) := by after_results
theorem keep1_v3 : StableHlo.after (hostOps1 (F := Ideal)) W (Proc.devRef .tc main_v3) = W (Proc.devRef .tc main_v3) := by after_results
theorem keep1_arg2 : StableHlo.after (hostOps1 (F := Ideal)) W (Proc.devRef .tc main_arg2) = W (Proc.devRef .tc main_arg2) := by after_results
theorem keep1_arg5 : StableHlo.after (hostOps1 (F := Ideal)) W (Proc.devRef .tc main_arg5) = W (Proc.devRef .tc main_arg5) := by after_results
theorem keep1_arg6 : StableHlo.after (hostOps1 (F := Ideal)) W (Proc.devRef .tc main_arg6) = W (Proc.devRef .tc main_arg6) := by after_results
theorem keep1_arg7 : StableHlo.after (hostOps1 (F := Ideal)) W (Proc.devRef .tc main_arg7) = W (Proc.devRef .tc main_arg7) := by after_results
theorem keep1_arg8 : StableHlo.after (hostOps1 (F := Ideal)) W (Proc.devRef .tc main_arg8) = W (Proc.devRef .tc main_arg8) := by after_results

set_option maxHeartbeats 4000000 in
theorem agg2 : StableHlo.after (hostOps2 (F := Ideal)) W (Proc.devRef .tc main_v42)
    = aggK (W (Proc.devRef .tc main_v28)) (W (Proc.devRef .tc main_v1)) (W (Proc.devRef .tc main_v3)) (W (Proc.devRef .tc main_arg2)) := by
  after_results_simp <;> rfl
theorem weight2 : StableHlo.after (hostOps2 (F := Ideal)) W (Proc.devRef .tc main_v45) = wOf1 (W (Proc.devRef .tc main_arg5)) := by
  after_results <;> rfl
theorem bias2 : StableHlo.after (hostOps2 (F := Ideal)) W (Proc.devRef .tc main_v48) = bOf1 (W (Proc.devRef .tc main_arg6)) := by
  after_results <;> rfl
theorem keep2_v28 : StableHlo.after (hostOps2 (F := Ideal)) W (Proc.devRef .tc main_v28) = W (Proc.devRef .tc main_v28) := by after_results
theorem keep2_v1 : StableHlo.after (hostOps2 (F := Ideal)) W (Proc.devRef .tc main_v1) = W (Proc.devRef .tc main_v1) := by after_results
theorem keep2_v3 : StableHlo.after (hostOps2 (F := Ideal)) W (Proc.devRef .tc main_v3) = W (Proc.devRef .tc main_v3) := by after_results
theorem keep2_arg2 : StableHlo.after (hostOps2 (F := Ideal)) W (Proc.devRef .tc main_arg2) = W (Proc.devRef .tc main_arg2) := by after_results
theorem keep2_arg5 : StableHlo.after (hostOps2 (F := Ideal)) W (Proc.devRef .tc main_arg5) = W (Proc.devRef .tc main_arg5) := by after_results
theorem keep2_arg6 : StableHlo.after (hostOps2 (F := Ideal)) W (Proc.devRef .tc main_arg6) = W (Proc.devRef .tc main_arg6) := by after_results
theorem keep2_arg7 : StableHlo.after (hostOps2 (F := Ideal)) W (Proc.devRef .tc main_arg7) = W (Proc.devRef .tc main_arg7) := by after_results
theorem keep2_arg8 : StableHlo.after (hostOps2 (F := Ideal)) W (Proc.devRef .tc main_arg8) = W (Proc.devRef .tc main_arg8) := by after_results

set_option maxHeartbeats 4000000 in
theorem agg3 : StableHlo.after (hostOps3 (F := Ideal)) W (Proc.devRef .tc main_v63)
    = aggK (W (Proc.devRef .tc main_v49)) (W (Proc.devRef .tc main_v1)) (W (Proc.devRef .tc main_v3)) (W (Proc.devRef .tc main_arg2)) := by
  after_results_simp <;> rfl
theorem weight3 : StableHlo.after (hostOps3 (F := Ideal)) W (Proc.devRef .tc main_v66) = wOf2 (W (Proc.devRef .tc main_arg5)) := by
  after_results <;> rfl
theorem bias3 : StableHlo.after (hostOps3 (F := Ideal)) W (Proc.devRef .tc main_v69) = bOf2 (W (Proc.devRef .tc main_arg6)) := by
  after_results <;> rfl
theorem keep3_v49 : StableHlo.after (hostOps3 (F := Ideal)) W (Proc.devRef .tc main_v49) = W (Proc.devRef .tc main_v49) := by after_results
theorem keep3_v1 : StableHlo.after (hostOps3 (F := Ideal)) W (Proc.devRef .tc main_v1) = W (Proc.devRef .tc main_v1) := by after_results
theorem keep3_v3 : StableHlo.after (hostOps3 (F := Ideal)) W (Proc.devRef .tc main_v3) = W (Proc.devRef .tc main_v3) := by after_results
theorem keep3_arg2 : StableHlo.after (hostOps3 (F := Ideal)) W (Proc.devRef .tc main_arg2) = W (Proc.devRef .tc main_arg2) := by after_results
theorem keep3_arg5 : StableHlo.after (hostOps3 (F := Ideal)) W (Proc.devRef .tc main_arg5) = W (Proc.devRef .tc main_arg5) := by after_results
theorem keep3_arg6 : StableHlo.after (hostOps3 (F := Ideal)) W (Proc.devRef .tc main_arg6) = W (Proc.devRef .tc main_arg6) := by after_results
theorem keep3_arg7 : StableHlo.after (hostOps3 (F := Ideal)) W (Proc.devRef .tc main_arg7) = W (Proc.devRef .tc main_arg7) := by after_results
theorem keep3_arg8 : StableHlo.after (hostOps3 (F := Ideal)) W (Proc.devRef .tc main_arg8) = W (Proc.devRef .tc main_arg8) := by after_results

/-! ## Before the last launch -/

theorem wout4 : StableHlo.after (hostOps4 (F := Ideal)) W (Proc.devRef .tc main_v71) = truncf (F := Ideal) .bf16 (W (Proc.devRef .tc main_arg7)) bitsLt_bf16_f32 := by
  after_results <;> rfl
theorem bout4 : StableHlo.after (hostOps4 (F := Ideal)) W (Proc.devRef .tc main_v72) = shapeCast S1x32 (W (Proc.devRef .tc main_arg8)) shapeCasts_S32_S1x32 := by
  after_results <;> rfl
theorem keep4_v70 : StableHlo.after (hostOps4 (F := Ideal)) W (Proc.devRef .tc main_v70) = W (Proc.devRef .tc main_v70) := by after_results

end Cert.KernelIdeal.GnnHost

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«122889_j89550068122357_1_alg».proof.Proof.LibMatmulRows
import proofs.«122889_j89550068122357_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«122889_j89550068122357_1_alg».proof.Proof.LibMatmulRows
import proofs.«122889_j89550068122357_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.GnnSpec.lean ====
/-
  THE SPECIFICATION: three rounds of message passing on a graph of 100000 nodes, as one function of the argument arrays on
  extended reals. Nothing here mentions a program.

  Node features are matrices of 100000 rows. With A the aggregation step (a function from feature matrices to feature
  matrices: here it is kept ABSTRACT, because both programs compute it by the very same gather, scaling by the edge
  weights and scatter-add over the edge list) the network is
      h0 = x · W_in + b_in
      h(l+1) = rectifier((h(l) + A(h(l))) · W_l + b_l)      l = 0, 1, 2
      out = h3 · W_out + b_out.
  `combine` is one round's dense half, h, a ↦ rectifier((h + a) · W + b); it is row-local: row r of the result depends
  only on row r of h and of a. That is what lets a computation tiled over blocks of 10000 rows be read as one
  computation on the whole matrix.
-/
import proofs.«122889_j89550068122357_1_alg».proof.Proof.LibDenseLayers

noncomputable section

namespace Cert.Gnn

open Idealize.ShloMosaic Idealize.ShloMosaic.ValueIdx Cert.LibDenseLayers
open scoped BigOperators

/-- The entrywise sum of two matrices. -/
def plus {R K : ℕ} (h a : (⟨2, ![R, K]⟩ : Shape).Idx → EReal) : (⟨2, ![R, K]⟩ : Shape).Idx → EReal :=
  fun i => h i + a i

/-- One round's dense half: the rectified affine layer of h + a. -/
def combine {R K N : ℕ} (h a : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  stage1 (plus h a) W b

/-- Entry (p, q) of a round's dense half. -/
theorem combine_apply {R K N : ℕ} (h a : (⟨2, ![R, K]⟩ : Shape).Idx → EReal) (W : (⟨2, ![K, N]⟩ : Shape).Idx → EReal)
    (b : (⟨1, ![N]⟩ : Shape).Idx → EReal) (p : Fin R) (q : Fin N) :
    combine h a W b (ix2 p q) = max (affineAt (plus h a) W b p q) (Ideal.ofBits .f32 0x00000000#32) := rfl

/-- Row-locality of a round's dense half: if row p of h and of a are row p' of h' and of a', the results' rows agree. -/
theorem combine_row {R R' K N : ℕ} (h a : (⟨2, ![R, K]⟩ : Shape).Idx → EReal) (h' a' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (ha : ∀ k : Fin K, a (ix2 p k) = a' (ix2 p' k)) (q : Fin N) :
    combine h a W b (ix2 p q) = combine h' a' W b (ix2 p' q) :=
  stage1_row (plus h a) (plus h' a') W b p p' (fun k => by show h _ + a _ = h' _ + a' _; rw [hh k, ha k]) q

/-- Row-locality of an affine layer, entry by entry. -/
theorem affine_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affine h W b (ix2 p q) = affine h' W b (ix2 p' q) :=
  affineAt_congr h h' W b p p' hh q

/-- The network: an input projection, three rounds each adding the aggregate A of the current features before a
    rectified affine layer, and an output projection. -/
def gnn (A : ((⟨2, ![100000, 64]⟩ : Shape).Idx → EReal) → ((⟨2, ![100000, 64]⟩ : Shape).Idx → EReal))
    (x : (⟨2, ![100000, 128]⟩ : Shape).Idx → EReal) (Win : (⟨2, ![128, 64]⟩ : Shape).Idx → EReal) (bin : (⟨1, ![64]⟩ : Shape).Idx → EReal)
    (W0 : (⟨2, ![64, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (Wout : (⟨2, ![64, 32]⟩ : Shape).Idx → EReal) (bout : (⟨1, ![32]⟩ : Shape).Idx → EReal) :
    (⟨2, ![100000, 32]⟩ : Shape).Idx → EReal :=
  let h0 := affine x Win bin
  let h1 := combine h0 (A h0) W0 b0
  let h2 := combine h1 (A h1) W1 b1
  let h3 := combine h2 (A h2) W2 b2
  affine h3 Wout bout

end Cert.Gnn

end
-- ==== Proof.KDots.lean ====
/-
  The operand indices of the kernels' three matrix products, coordinate by coordinate: a product of an [R, K] block with a
  [K, N] matrix contracts the lanes of the left operand with the rows of the right one, so at result index (p, q) and
  contraction index k the left operand is read at (p, k) and the right one at (k, q).
-/
import proofs.«122889_j89550068122357_1_alg».proof.Proof.Gen.KernelIdeal
import Idealize.ShloMosaic.PureOps.Ideal.Laws
import Idealize.ShloMosaic.Lib.ValueIdx

noncomputable section

namespace Cert.KernelIdeal.GnnDots

open Cert.KernelIdeal Cert.KernelIdeal.Gen Idealize.ShloMosaic

theorem d128_l0 (i : S10000x64.Idx) (s : dot_S10000x128_S128x64_S10000x64_1_0_0_1_n_n.contr.Idx) : (dot_S10000x128_S128x64_S10000x64_1_0_0_1_n_n.lhsIdx i s 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d128_l1 (i : S10000x64.Idx) (s : dot_S10000x128_S128x64_S10000x64_1_0_0_1_n_n.contr.Idx) : (dot_S10000x128_S128x64_S10000x64_1_0_0_1_n_n.lhsIdx i s 1).val = (s ⟨0, by decide⟩).val :=
  dot_S10000x128_S128x64_S10000x64_1_0_0_1_n_n.lhsIdx_val_of_single rfl i s
theorem d128_r0 (i : S10000x64.Idx) (s : dot_S10000x128_S128x64_S10000x64_1_0_0_1_n_n.contr.Idx) : (dot_S10000x128_S128x64_S10000x64_1_0_0_1_n_n.rhsIdx i s 0).val = (s ⟨0, by decide⟩).val :=
  dot_S10000x128_S128x64_S10000x64_1_0_0_1_n_n.rhsIdx_val_of_single rfl i s
theorem d128_r1 (i : S10000x64.Idx) (s : dot_S10000x128_S128x64_S10000x64_1_0_0_1_n_n.contr.Idx) : (dot_S10000x128_S128x64_S10000x64_1_0_0_1_n_n.rhsIdx i s 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem d64_l0 (i : S10000x64.Idx) (s : dot_S10000x64_S64x64_S10000x64_1_0_0_1_n_n.contr.Idx) : (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d64_l1 (i : S10000x64.Idx) (s : dot_S10000x64_S64x64_S10000x64_1_0_0_1_n_n.contr.Idx) : (dot_S10000x64_S64x64_S10000x64_1_0_0_1_n_n.lhsIdx i s 1).val = (s ⟨0, by decide⟩).val :=
  dot_S10000x64_S64x64_S10000x64_1_0_0_1_n_n.lhsIdx_val_of_single rfl i s
theorem d64_r0 (i : S10000x64.Idx) (s : dot_S10000x64_S64x64_S10000x64_1_0_0_1_n_n.contr.Idx) : (dot_S10000x64_S64x64_S10000x64_1_0_0_1_n_n.rhsIdx i s 0).val = (s ⟨0, by decide⟩).val :=
  dot_S10000x64_S64x64_S10000x64_1_0_0_1_n_n.rhsIdx_val_of_single rfl i s
theorem d64_r1 (i : S10000x64.Idx) (s : dot_S10000x64_S64x64_S10000x64_1_0_0_1_n_n.contr.Idx) : (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem d32_l0 (i : S10000x32.Idx) (s : dot_S10000x64_S64x32_S10000x32_1_0_0_1_n_n.contr.Idx) : (dot_S10000x64_S64x32_S10000x32_1_0_0_1_n_n.lhsIdx i s 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem d32_l1 (i : S10000x32.Idx) (s : dot_S10000x64_S64x32_S10000x32_1_0_0_1_n_n.contr.Idx) : (dot_S10000x64_S64x32_S10000x32_1_0_0_1_n_n.lhsIdx i s 1).val = (s ⟨0, by decide⟩).val :=
  dot_S10000x64_S64x32_S10000x32_1_0_0_1_n_n.lhsIdx_val_of_single rfl i s
theorem d32_r0 (i : S10000x32.Idx) (s : dot_S10000x64_S64x32_S10000x32_1_0_0_1_n_n.contr.Idx) : (dot_S10000x64_S64x32_S10000x32_1_0_0_1_n_n.rhsIdx i s 0).val = (s ⟨0, by decide⟩).val :=
  dot_S10000x64_S64x32_S10000x32_1_0_0_1_n_n.rhsIdx_val_of_single rfl i s
theorem d32_r1 (i : S10000x32.Idx) (s : dot_S10000x64_S64x32_S10000x32_1_0_0_1_n_n.contr.Idx) : (dot_S10000x64_S64x32_S10000x32_1_0_0_1_n_n.rhsIdx i s 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

end Cert.KernelIdeal.GnnDots

end
-- ==== Proof.KRegion0.lean ====
/-
  Launch 0 of five (a dense projection) read as ONE function of the arrays it finds: the launch walks ten blocks of 10000
  rows; at block t it loads rows 10000·t … 10000·t + 9999 of the input x, the whole 128 × 64 weight matrix W and the
  one-row bias B, and writes back x · W + B for those rows. Row r of that result depends only on row r of x, so block t
  written back is block t of the whole-matrix function `affine x W (row of B)`, and the ten blocks tile the 100000 rows:
  after the launch the output array IS that function.
-/
import proofs.«122889_j89550068122357_1_alg».proof.Proof.Gen.KernelIdeal.Frame
import Idealize.ShloMosaic.Lib.Pipeline.Value
import proofs.«122889_j89550068122357_1_alg».proof.Proof.LibRowBias
import proofs.«122889_j89550068122357_1_alg».proof.Proof.GnnSpec
import proofs.«122889_j89550068122357_1_alg».proof.Proof.KDots

set_option maxRecDepth 16384

noncomputable section

namespace Cert.KernelIdeal.GnnRegion0

open Cert.KernelIdeal Cert.KernelIdeal.Gen Idealize.ShloMosaic Idealize.ShloMosaic.TcCoe Idealize.SL.Sem
open Idealize.ShloMosaic.ValueIdx Cert.LibDenseLayers Cert.LibRowBias Cert.Gnn Cert.KernelIdeal.GnnDots
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at entry (p, q) of a block: row p of x against column q of W, plus the bias row at q. The
    conversions between float formats are the identity on extended reals. -/
theorem pay_at (v0 : Vec Ideal S10000x128 .bf16) (v2 : Vec Ideal S128x64 .bf16) (v5 : Vec Ideal S1x64 .f32)
    (p : Fin 10000) (q : Fin 64) :
    k0_pay1 v0 v2 v5 (ix2 p q) = affineAt v0 v2 (rowOf v5) p q := by
  have e0 : shapeCast S10000x128 v0 shapeCasts_S10000x128_S10000x128 = v0 := shapeCast_self _ _
  have e2 : shapeCast S128x64 v2 shapeCasts_S128x64_S128x64 = v2 := shapeCast_self _ _
  show matmul dot_S10000x128_S128x64_S10000x64_1_0_0_1_n_n none
        (shapeCast S10000x128 v0 shapeCasts_S10000x128_S10000x128)
        (shapeCast S128x64 v2 shapeCasts_S128x64_S128x64) (constant (F := Ideal) S10000x64 .f32 0x00000000#32) (ix2 p q)
      + broadcastTo S10000x64 (shapeCast S1x64 v5 shapeCasts_S1x64_S1x64) broadcasts_S1x64_S10000x64 (ix2 p q) = _
  rw [e0, e2]
  exact affineAt_of_matmul_row dot_S10000x128_S128x64_S10000x64_1_0_0_1_n_n rfl rfl d128_l0 d128_l1 d128_r0 d128_r1
      shapeCasts_S1x64_S1x64 broadcasts_S1x64_S10000x64 v0 v2 v5 p q

/-- The printed index maps, decided over the ten points: the row-blocked input and the output move together, one block
    of rows per point; the weight matrix and the bias are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 10000·t + p of the whole matrix. -/
def row (t : Fin cfg0.N) (p : Fin 10000) : Fin 100000 :=
  ⟨t.val * 10000 + p.val, by have ht : t.val < 10 := lt_of_lt_of_eq t.isLt N_0; have hp := p.isLt; omega⟩

theorem emb0 (t : Fin cfg0.N) (p : Fin 10000) (k : Fin 128) : ((cfg0.win 0).blk t).view.emb (ix2 p k) = ix2 (row t p) k := by
  obtain ⟨e00, e01, -⟩ := idx_facts t
  funext a; apply Fin.ext
  match a with
  | ⟨0, _⟩ => show win0_0.index t (0 : Fin 2) * 10000 + 1 * p.val = t.val * 10000 + p.val; rw [e00]; omega
  | ⟨1, _⟩ => show win0_0.index t (1 : Fin 2) * 128 + 1 * k.val = k.val; rw [e01]; omega

theorem emb3 (t : Fin cfg0.N) (p : Fin 10000) (q : Fin 64) : ((cfg0.win 3).blk t).view.emb (ix2 p q) = ix2 (row t p) q := by
  obtain ⟨-, -, -, -, -, -, e30, e31⟩ := idx_facts t
  funext a; apply Fin.ext
  match a with
  | ⟨0, _⟩ => show win0_3.index t (0 : Fin 2) * 10000 + 1 * p.val = t.val * 10000 + p.val; rw [e30]; omega
  | ⟨1, _⟩ => show win0_3.index t (1 : Fin 2) * 64 + 1 * q.val = q.val; rw [e31]; omega

theorem emb1 (t : Fin cfg0.N) (y : S128x64.Idx) : ((cfg0.win 1).blk t).view.emb y = y := by
  obtain ⟨-, -, e10, e11, -⟩ := idx_facts t
  funext a; apply Fin.ext
  match a with
  | ⟨0, _⟩ => show win0_1.index t (0 : Fin 2) * 128 + 1 * (y 0).val = (y 0).val; rw [e10]; omega
  | ⟨1, _⟩ => show win0_1.index t (1 : Fin 2) * 64 + 1 * (y 1).val = (y 1).val; rw [e11]; omega

theorem emb2 (t : Fin cfg0.N) (y : S1x64.Idx) : ((cfg0.win 2).blk t).view.emb y = y := by
  obtain ⟨-, -, -, -, e20, e21, -⟩ := idx_facts t
  funext a; apply Fin.ext
  match a with
  | ⟨0, _⟩ => show win0_2.index t (0 : Fin 2) * 1 + 1 * (y 0).val = (y 0).val; rw [e20]; omega
  | ⟨1, _⟩ => show win0_2.index t (1 : Fin 2) * 64 + 1 * (y 1).val = (y 1).val; rw [e21]; omega

/-- The blocks the body loads at point t, read off the arrays the launch finds. -/
theorem blk0 (c : Dev nD) (t : Fin cfg0.N) (p : Fin 10000) (k : Fin 128) :
    iblk0 V c 0 t (ix2 p k) = V c main_v4 (ix2 (row t p) k) := by
  show V c main_v4 (((cfg0.win 0).blk t).view.emb (ix2 p k)) = _
  rw [emb0]
theorem blk1 (c : Dev nD) (t : Fin cfg0.N) : (iblk0 V c 1 t : S128x64.Idx → EReal) = V c main_v5 := by
  funext y
  show V c main_v5 (((cfg0.win 1).blk t).view.emb y) = _
  rw [emb1]
theorem blk2 (c : Dev nD) (t : Fin cfg0.N) : (iblk0 V c 2 t : S1x64.Idx → EReal) = V c main_v6 := by
  funext y
  show V c main_v6 (((cfg0.win 2).blk t).view.emb y) = _
  rw [emb2]

/-- What point t writes back is block t of the whole-matrix function. -/
theorem flushed_eq (c : Dev nD) (t : Fin cfg0.N) :
    (dat0 (F := Ideal) V c).flushed 3 t
      = ((cfg0.win 3).blk t).view.read (Elt Ideal) (affine (V c main_v4) (V c main_v5) (rowOf (V c main_v6))) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S1x64) hz2]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
      = affine (V c main_v4) (V c main_v5) (rowOf (V c main_v6)) (((cfg0.win 3).blk t).view.emb (ix2 p q))
  rw [emb3]
  refine (pay_at (iblk0 V c 0 t) (iblk0 V c 1 t) (iblk0 V c 2 t) p q).trans ?_
  rw [blk1 V c t, blk2 V c t]
  exact affineAt_congr (iblk0 V c 0 t) (V c main_v4) (V c main_v5) (rowOf (V c main_v6)) p (row t p)
      (fun k => blk0 V c t p k) q

/-- An index of the output array is in point t's block iff its row is among the block's 10000 rows. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v7).slice (win0_3.rect t)).set ↔ _
  rw [View.set_slice_whole, Rect.mem_set_unit]
  exact Iff.rfl

/-- Every index is in some point's block: the block of row r is r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e30, ht]; omega
  | ⟨1, _⟩ => show win0_3.index t (1 : Fin 2) * 64 ≤ (i 1).val ∧ (i 1).val < win0_3.index t (1 : Fin 2) * 64 + 64; rw [e31]; omega

/-- After the launch the output array is the projection of the arrays the launch found. -/
theorem final (c : Dev nD) :
    (dat0 (F := Ideal) V c).arrAt 3 cfg0.N = affine (V c main_v4) (V c main_v5) (rowOf (V c main_v6)) :=
  (dat0 V c).arrAt_eq_of_cover 3 _ (fun t _ => flushed_eq V c t) cover

end Cert.KernelIdeal.GnnRegion0

end
-- ==== Proof.KRegion1.lean ====
/-
  Launch 1 of five (a round's dense half) read as ONE function of the arrays it finds: the launch walks ten blocks of
  10000 rows; at block t it loads rows 10000·t … 10000·t + 9999 of the features h and of the aggregate a, the whole
  64 × 64 weight matrix W and the one-row bias B, and writes back rectifier((h + a) · W + B) for those rows. Row r of
  that result depends only on row r of h and of a, so block t written back is block t of the whole-matrix function
  `combine h a W (row of B)`, and the ten blocks tile the 100000 rows: after the launch the output array IS that function.
-/
import proofs.«122889_j89550068122357_1_alg».proof.Proof.Gen.KernelIdeal.Frame
import Idealize.ShloMosaic.Lib.Pipeline.Value
import proofs.«122889_j89550068122357_1_alg».proof.Proof.LibRowBias
import proofs.«122889_j89550068122357_1_alg».proof.Proof.GnnSpec
import proofs.«122889_j89550068122357_1_alg».proof.Proof.KDots

set_option maxRecDepth 16384

noncomputable section

namespace Cert.KernelIdeal.GnnRegion1

open Cert.KernelIdeal Cert.KernelIdeal.Gen Idealize.ShloMosaic Idealize.ShloMosaic.TcCoe Idealize.SL.Sem
open Idealize.ShloMosaic.ValueIdx Cert.LibDenseLayers Cert.LibRowBias Cert.Gnn Cert.KernelIdeal.GnnDots
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at entry (p, q) of a block: row p of h + a against column q of W, plus the bias row at q,
    rectified. The conversions between float formats are the identity on extended reals. -/
theorem pay_at (v0 : Vec Ideal S10000x64 .bf16) (v3 : Vec Ideal S10000x64 .f32) (v7 : Vec Ideal S64x64 .bf16) (v10 : Vec Ideal S1x64 .f32)
    (p : Fin 10000) (q : Fin 64) :
    k1_pay1 v0 v3 v7 v10 (ix2 p q)
      = max (affineAt (plus (R := 10000) (K := 64) v0 v3) v7 (rowOf v10) p q) (Ideal.ofBits .f32 0x00000000#32) := by
  have e0 : shapeCast S10000x64 v0 shapeCasts_S10000x64_S10000x64 = v0 := shapeCast_self _ _
  have e3 : shapeCast S10000x64 v3 shapeCasts_S10000x64_S10000x64 = v3 := shapeCast_self _ _
  have e7 : shapeCast S64x64 v7 shapeCasts_S64x64_S64x64 = v7 := shapeCast_self _ _
  show max (matmul dot_S10000x64_S64x64_S10000x64_1_0_0_1_n_n none
        (fun i => shapeCast S10000x64 v0 shapeCasts_S10000x64_S10000x64 i + shapeCast S10000x64 v3 shapeCasts_S10000x64_S10000x64 i)
        (shapeCast S64x64 v7 shapeCasts_S64x64_S64x64) (constant (F := Ideal) S10000x64 .f32 0x00000000#32) (ix2 p q)
      + broadcastTo S10000x64 (shapeCast S1x64 v10 shapeCasts_S1x64_S1x64) broadcasts_S1x64_S10000x64 (ix2 p q))
      (Ideal.ofBits .f32 0x00000000#32) = _
  rw [e0, e3, e7]
  exact congrArg (max · (Ideal.ofBits .f32 0x00000000#32))
    (affineAt_of_matmul_row dot_S10000x64_S64x64_S10000x64_1_0_0_1_n_n rfl rfl d64_l0 d64_l1 d64_r0 d64_r1
      shapeCasts_S1x64_S1x64 broadcasts_S1x64_S10000x64 (plus (R := 10000) (K := 64) v0 v3) v7 v10 p q)

/-- The printed index maps, decided over the ten points: the two row-blocked inputs and the output move together, one
    block of rows per point; the weight matrix and the bias are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 10000·t + p of the whole matrix. -/
def row (t : Fin cfg1.N) (p : Fin 10000) : Fin 100000 :=
  ⟨t.val * 10000 + p.val, by have ht : t.val < 10 := lt_of_lt_of_eq t.isLt N_1; have hp := p.isLt; omega⟩

theorem emb0 (t : Fin cfg1.N) (p : Fin 10000) (k : Fin 64) : ((cfg1.win 0).blk t).view.emb (ix2 p k) = ix2 (row t p) k := by
  obtain ⟨e00, e01, -⟩ := idx_facts t
  funext a; apply Fin.ext
  match a with
  | ⟨0, _⟩ => show win1_0.index t (0 : Fin 2) * 10000 + 1 * p.val = t.val * 10000 + p.val; rw [e00]; omega
  | ⟨1, _⟩ => show win1_0.index t (1 : Fin 2) * 64 + 1 * k.val = k.val; rw [e01]; omega

theorem emb1 (t : Fin cfg1.N) (p : Fin 10000) (k : Fin 64) : ((cfg1.win 1).blk t).view.emb (ix2 p k) = ix2 (row t p) k := by
  obtain ⟨-, -, e10, e11, -⟩ := idx_facts t
  funext a; apply Fin.ext
  match a with
  | ⟨0, _⟩ => show win1_1.index t (0 : Fin 2) * 10000 + 1 * p.val = t.val * 10000 + p.val; rw [e10]; omega
  | ⟨1, _⟩ => show win1_1.index t (1 : Fin 2) * 64 + 1 * k.val = k.val; rw [e11]; omega

theorem emb4 (t : Fin cfg1.N) (p : Fin 10000) (q : Fin 64) : ((cfg1.win 4).blk t).view.emb (ix2 p q) = ix2 (row t p) q := by
  obtain ⟨-, -, -, -, -, -, -, -, e40, e41⟩ := idx_facts t
  funext a; apply Fin.ext
  match a with
  | ⟨0, _⟩ => show win1_4.index t (0 : Fin 2) * 10000 + 1 * p.val = t.val * 10000 + p.val; rw [e40]; omega
  | ⟨1, _⟩ => show win1_4.index t (1 : Fin 2) * 64 + 1 * q.val = q.val; rw [e41]; omega

theorem emb2 (t : Fin cfg1.N) (y : S64x64.Idx) : ((cfg1.win 2).blk t).view.emb y = y := by
  obtain ⟨-, -, -, -, e20, e21, -⟩ := idx_facts t
  funext a; apply Fin.ext
  match a with
  | ⟨0, _⟩ => show win1_2.index t (0 : Fin 2) * 64 + 1 * (y 0).val = (y 0).val; rw [e20]; omega
  | ⟨1, _⟩ => show win1_2.index t (1 : Fin 2) * 64 + 1 * (y 1).val = (y 1).val; rw [e21]; omega

theorem emb3 (t : Fin cfg1.N) (y : S1x64.Idx) : ((cfg1.win 3).blk t).view.emb y = y := by
  obtain ⟨-, -, -, -, -, -, e30, e31, -⟩ := idx_facts t
  funext a; apply Fin.ext
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- The blocks the body loads at point t, read off the arrays the launch finds. -/
theorem blk0 (c : Dev nD) (t : Fin cfg1.N) (p : Fin 10000) (k : Fin 64) :
    iblk1 V c 0 t (ix2 p k) = V c main_v7 (ix2 (row t p) k) := by
  show V c main_v7 (((cfg1.win 0).blk t).view.emb (ix2 p k)) = _
  rw [emb0]
theorem blk1 (c : Dev nD) (t : Fin cfg1.N) (p : Fin 10000) (k : Fin 64) :
    iblk1 V c 1 t (ix2 p k) = V c main_v21 (ix2 (row t p) k) := by
  show V c main_v21 (((cfg1.win 1).blk t).view.emb (ix2 p k)) = _
  rw [emb1]
theorem blk2 (c : Dev nD) (t : Fin cfg1.N) : (iblk1 V c 2 t : S64x64.Idx → EReal) = V c main_v24 := by
  funext y
  show V c main_v24 (((cfg1.win 2).blk t).view.emb y) = _
  rw [emb2]
theorem blk3 (c : Dev nD) (t : Fin cfg1.N) : (iblk1 V c 3 t : S1x64.Idx → EReal) = V c main_v27 := by
  funext y
  show V c main_v27 (((cfg1.win 3).blk t).view.emb y) = _
  rw [emb3]

set_option maxHeartbeats 1000000 in
/-- What point t writes back is block t of the whole-matrix function. -/
theorem flushed_eq (c : Dev nD) (t : Fin cfg1.N) :
    (dat1 (F := Ideal) V c).flushed 4 t
      = ((cfg1.win 4).blk t).view.read (Elt Ideal)
          (combine (R := 100000) (K := 64) (N := 64) (V c main_v7) (V c main_v21) (V c main_v24) (rowOf (N := 64) (V c main_v27))) := by
  show (cfg1.win 4).cut (grid1.coords t) ((dat1 V c).after 4 t) = _
  rw [after1_4]
  unfold out1_4
  rw [View.canon_unit_zero hz2]
  simp only [View.ld_unit_zero (S := S10000x64) hz2, View.ld_unit_zero (S := S64x64) hz2, View.ld_unit_zero (S := S1x64) hz2]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (ix2 p q)
      = combine (R := 100000) (K := 64) (N := 64) (V c main_v7) (V c main_v21) (V c main_v24) (rowOf (N := 64) (V c main_v27)) (((cfg1.win 4).blk t).view.emb (ix2 p q))
  rw [emb4, combine_apply]
  refine (pay_at (iblk1 V c 0 t) (iblk1 V c 1 t) (iblk1 V c 2 t) (iblk1 V c 3 t) p q).trans ?_
  rw [blk2 V c t, blk3 V c t]
  exact congrArg (max · (Ideal.ofBits .f32 0x00000000#32))
    (affineAt_congr (R := 10000) (R' := 100000) (K := 64) (N := 64)
      (plus (R := 10000) (K := 64) (iblk1 V c 0 t) (iblk1 V c 1 t))
      (plus (R := 100000) (K := 64) (V c main_v7) (V c main_v21))
      (V c main_v24) (rowOf (N := 64) (V c main_v27)) p (row t p)
      (fun k => by
        show plus (R := 10000) (K := 64) (iblk1 V c 0 t) (iblk1 V c 1 t) (ix2 p k) = _
        unfold plus
        rw [blk0 V c t p k, blk1 V c t p k]) q)

/-- An index of the output array is in point t's block iff its row is among the block's 10000 rows. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v28).slice (win1_4.rect t)).set ↔ _
  rw [View.set_slice_whole, Rect.mem_set_unit]
  exact Iff.rfl

/-- Every index is in some point's block: the block of row r is r / 10000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, -, -, e40, e41⟩ := idx_facts t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; rw [e40, ht]; omega
  | ⟨1, _⟩ => show win1_4.index t (1 : Fin 2) * 64 ≤ (i 1).val ∧ (i 1).val < win1_4.index t (1 : Fin 2) * 64 + 64; rw [e41]; omega

/-- After the launch the output array is the round's dense half of the arrays the launch found. -/
theorem final (c : Dev nD) :
    (dat1 (F := Ideal) V c).arrAt 4 cfg1.N
      = combine (R := 100000) (K := 64) (N := 64) (V c main_v7) (V c main_v21) (V c main_v24) (rowOf (N := 64) (V c main_v27)) :=
  (dat1 V c).arrAt_eq_of_cover 4 _ (fun t _ => flushed_eq V c t) cover

end Cert.KernelIdeal.GnnRegion1

end
-- ==== Proof.KRegion2.lean ====
/-
  Launch 2 of five (a round's dense half) read as ONE function of the arrays it finds: the launch walks ten blocks of
  10000 rows; at block t it loads rows 10000·t … 10000·t + 9999 of the features h and of the aggregate a, the whole
  64 × 64 weight matrix W and the one-row bias B, and writes back rectifier((h + a) · W + B) for those rows. Row r of
  that result depends only on row r of h and of a, so block t written back is block t of the whole-matrix function
  `combine h a W (row of B)`, and the ten blocks tile the 100000 rows: after the launch the output array IS that function.
-/
import proofs.«122889_j89550068122357_1_alg».proof.Proof.Gen.KernelIdeal.Frame
import Idealize.ShloMosaic.Lib.Pipeline.Value
import proofs.«122889_j89550068122357_1_alg».proof.Proof.LibRowBias
import proofs.«122889_j89550068122357_1_alg».proof.Proof.GnnSpec
import proofs.«122889_j89550068122357_1_alg».proof.Proof.KDots

set_option maxRecDepth 16384

noncomputable section

namespace Cert.KernelIdeal.GnnRegion2

open Cert.KernelIdeal Cert.KernelIdeal.Gen Idealize.ShloMosaic Idealize.ShloMosaic.TcCoe Idealize.SL.Sem
open Idealize.ShloMosaic.ValueIdx Cert.LibDenseLayers Cert.LibRowBias Cert.Gnn Cert.KernelIdeal.GnnDots
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at entry (p, q) of a block: row p of h + a against column q of W, plus the bias row at q,
    rectified. The conversions between float formats are the identity on extended reals. -/
theorem pay_at (v0 : Vec Ideal S10000x64 .bf16) (v3 : Vec Ideal S10000x64 .f32) (v7 : Vec Ideal S64x64 .bf16) (v10 : Vec Ideal S1x64 .f32)
    (p : Fin 10000) (q : Fin 64) :
    k2_pay1 v0 v3 v7 v10 (ix2 p q)
      = max (affineAt (plus (R := 10000) (K := 64) v0 v3) v7 (rowOf v10) p q) (Ideal.ofBits .f32 0x00000000#32) := by
  have e0 : shapeCast S10000x64 v0 shapeCasts_S10000x64_S10000x64 = v0 := shapeCast_self _ _
  have e3 : shapeCast S10000x64 v3 shapeCasts_S10000x64_S10000x64 = v3 := shapeCast_self _ _
  have e7 : shapeCast S64x64 v7 shapeCasts_S64x64_S64x64 = v7 := shapeCast_self _ _
  show max (matmul dot_S10000x64_S64x64_S10000x64_1_0_0_1_n_n none
        (fun i => shapeCast S10000x64 v0 shapeCasts_S10000x64_S10000x64 i + shapeCast S10000x64 v3 shapeCasts_S10000x64_S10000x64 i)
        (shapeCast S64x64 v7 shapeCasts_S64x64_S64x64) (constant (F := Ideal) S10000x64 .f32 0x00000000#32) (ix2 p q)
      + broadcastTo S10000x64 (shapeCast S1x64 v10 shapeCasts_S1x64_S1x64) broadcasts_S1x64_S10000x64 (ix2 p q))
      (Ideal.ofBits .f32 0x00000000#32) = _
  rw [e0, e3, e7]
  exact congrArg (max · (Ideal.ofBits .f32 0x00000000#32))
    (affineAt_of_matmul_row dot_S10000x64_S64x64_S10000x64_1_0_0_1_n_n rfl rfl d64_l0 d64_l1 d64_r0 d64_r1
      shapeCasts_S1x64_S1x64 broadcasts_S1x64_S10000x64 (plus (R := 10000) (K := 64) v0 v3) v7 v10 p q)

/-- The printed index maps, decided over the ten points: the two row-blocked inputs and the output move together, one
    block of rows per point; the weight matrix and the bias are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 10000·t + p of the whole matrix. -/
def row (t : Fin cfg2.N) (p : Fin 10000) : Fin 100000 :=
  ⟨t.val * 10000 + p.val, by have ht : t.val < 10 := lt_of_lt_of_eq t.isLt N_2; have hp := p.isLt; omega⟩

theorem emb0 (t : Fin cfg2.N) (p : Fin 10000) (k : Fin 64) : ((cfg2.win 0).blk t).view.emb (ix2 p k) = ix2 (row t p) k := by
  obtain ⟨e00, e01, -⟩ := idx_facts t
  funext a; apply Fin.ext
  match a with
  | ⟨0, _⟩ => show win2_0.index t (0 : Fin 2) * 10000 + 1 * p.val = t.val * 10000 + p.val; rw [e00]; omega
  | ⟨1, _⟩ => show win2_0.index t (1 : Fin 2) * 64 + 1 * k.val = k.val; rw [e01]; omega

theorem emb1 (t : Fin cfg2.N) (p : Fin 10000) (k : Fin 64) : ((cfg2.win 1).blk t).view.emb (ix2 p k) = ix2 (row t p) k := by
  obtain ⟨-, -, e10, e11, -⟩ := idx_facts t
  funext a; apply Fin.ext
  match a with
  | ⟨0, _⟩ => show win2_1.index t (0 : Fin 2) * 10000 + 1 * p.val = t.val * 10000 + p.val; rw [e10]; omega
  | ⟨1, _⟩ => show win2_1.index t (1 : Fin 2) * 64 + 1 * k.val = k.val; rw [e11]; omega

theorem emb4 (t : Fin cfg2.N) (p : Fin 10000) (q : Fin 64) : ((cfg2.win 4).blk t).view.emb (ix2 p q) = ix2 (row t p) q := by
  obtain ⟨-, -, -, -, -, -, -, -, e40, e41⟩ := idx_facts t
  funext a; apply Fin.ext
  match a with
  | ⟨0, _⟩ => show win2_4.index t (0 : Fin 2) * 10000 + 1 * p.val = t.val * 10000 + p.val; rw [e40]; omega
  | ⟨1, _⟩ => show win2_4.index t (1 : Fin 2) * 64 + 1 * q.val = q.val; rw [e41]; omega

theorem emb2 (t : Fin cfg2.N) (y : S64x64.Idx) : ((cfg2.win 2).blk t).view.emb y = y := by
  obtain ⟨-, -, -, -, e20, e21, -⟩ := idx_facts t
  funext a; apply Fin.ext
  match a with
  | ⟨0, _⟩ => show win2_2.index t (0 : Fin 2) * 64 + 1 * (y 0).val = (y 0).val; rw [e20]; omega
  | ⟨1, _⟩ => show win2_2.index t (1 : Fin 2) * 64 + 1 * (y 1).val = (y 1).val; rw [e21]; omega

theorem emb3 (t : Fin cfg2.N) (y : S1x64.Idx) : ((cfg2.win 3).blk t).view.emb y = y := by
  obtain ⟨-, -, -, -, -, -, e30, e31, -⟩ := idx_facts t
  funext a; apply Fin.ext
  match a with
  | ⟨0, _⟩ => show win2_3.index t (0 : Fin 2) * 1 + 1 * (y 0).val = (y 0).val; rw [e30]; omega
  | ⟨1, _⟩ => show win2_3.index t (1 : Fin 2) * 64 + 1 * (y 1).val = (y 1).val; rw [e31]; omega

/-- The blocks the body loads at point t, read off the arrays the launch finds. -/
theorem blk0 (c : Dev nD) (t : Fin cfg2.N) (p : Fin 10000) (k : Fin 64) :
    iblk2 V c 0 t (ix2 p k) = V c main_v28 (ix2 (row t p) k) := by
  show V c main_v28 (((cfg2.win 0).blk t).view.emb (ix2 p k)) = _
  rw [emb0]
theorem blk1 (c : Dev nD) (t : Fin cfg2.N) (p : Fin 10000) (k : Fin 64) :
    iblk2 V c 1 t (ix2 p k) = V c main_v42 (ix2 (row t p) k) := by
  show V c main_v42 (((cfg2.win 1).blk t).view.emb (ix2 p k)) = _
  rw [emb1]
theorem blk2 (c : Dev nD) (t : Fin cfg2.N) : (iblk2 V c 2 t : S64x64.Idx → EReal) = V c main_v45 := by
  funext y
  show V c main_v45 (((cfg2.win 2).blk t).view.emb y) = _
  rw [emb2]
theorem blk3 (c : Dev nD) (t : Fin cfg2.N) : (iblk2 V c 3 t : S1x64.Idx → EReal) = V c main_v48 := by
  funext y
  show V c main_v48 (((cfg2.win 3).blk t).view.emb y) = _
  rw [emb3]

set_option maxHeartbeats 1000000 in
/-- What point t writes back is block t of the whole-matrix function. -/
theorem flushed_eq (c : Dev nD) (t : Fin cfg2.N) :
    (dat2 (F := Ideal) V c).flushed 4 t
      = ((cfg2.win 4).blk t).view.read (Elt Ideal)
          (combine (R := 100000) (K := 64) (N := 64) (V c main_v28) (V c main_v42) (V c main_v45) (rowOf (N := 64) (V c main_v48))) := by
  show (cfg2.win 4).cut (grid2.coords t) ((dat2 V c).after 4 t) = _
  rw [after2_4]
  unfold out2_4
  rw [View.canon_unit_zero hz2]
  simp only [View.ld_unit_zero (S := S10000x64) hz2, View.ld_unit_zero (S := S64x64) hz2, View.ld_unit_zero (S := S1x64) hz2]
  funext j
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (iblk2 V c 3 t) (ix2 p q)
      = combine (R := 100000) (K := 64) (N := 64) (V c main_v28) (V c main_v42) (V c main_v45) (rowOf (N := 64) (V c main_v48)) (((cfg2.win 4).blk t).view.emb (ix2 p q))
  rw [emb4, combine_apply]
  refine (pay_at (iblk2 V c 0 t) (iblk2 V c 1 t) (iblk2 V c 2 t) (iblk2 V c 3 t) p q).trans ?_
  rw [blk2 V c t, blk3 V c t]
  exact congrArg (max · (Ideal.ofBits .f32 0x00000000#32))
    (affineAt_congr (R := 10000) (R' := 100000) (K := 64) (N := 64)
      (plus (R := 10000) (K := 64) (iblk2 V c 0 t) (iblk2 V c 1 t))
      (plus (R := 100000) (K := 64) (V c main_v28) (V c main_v42))
      (V c main_v45) (rowOf (N := 64) (V c main_v48)) p (row t p)
      (fun k => by
        show plus (R := 10000) (K := 64) (iblk2 V c 0 t) (iblk2 V c 1 t) (ix2 p k) = _
        unfold plus
        rw [blk0 V c t p k, blk1 V c t p k]) q)

/-- An index of the output array is in point t's block iff its row is among the block's 10000 rows. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v49).slice (win2_4.rect t)).set ↔ _
  rw [View.set_slice_whole, Rect.mem_set_unit]
  exact Iff.rfl

/-- Every index is in some point's block: the block of row r is r / 10000. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, -, -, e40, e41⟩ := idx_facts t
  have ht : t.val = (i 0).val / 10000 := rfl
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; rw [e40, ht]; omega
  | ⟨1, _⟩ => show win2_4.index t (1 : Fin 2) * 64 ≤ (i 1).val ∧ (i 1).val < win2_4.index t (1 : Fin 2) * 64 + 64; rw [e41]; omega

/-- After the launch the output array is the round's dense half of the arrays the launch found. -/
theorem final (c : Dev nD) :
    (dat2 (F := Ideal) V c).arrAt 4 cfg2.N
      = combine (R := 100000) (K := 64) (N := 64) (V c main_v28) (V c main_v42) (V c main_v45) (rowOf (N := 64) (V c main_v48)) :=
  (dat2 V c).arrAt_eq_of_cover 4 _ (fun t _ => flushed_eq V c t) cover

end Cert.KernelIdeal.GnnRegion2

end
-- ==== Proof.KRegion3.lean ====
/-
  Launch 3 of five (a round's dense half) read as ONE function of the arrays it finds: the launch walks ten blocks of
  10000 rows; at block t it loads rows 10000·t … 10000·t + 9999 of the features h and of the aggregate a, the whole
  64 × 64 weight matrix W and the one-row bias B, and writes back rectifier((h + a) · W + B) for those rows. Row r of
  that result depends only on row r of h and of a, so block t written back is block t of the whole-matrix function
  `combine h a W (row of B)`, and the ten blocks tile the 100000 rows: after the launch the output array IS that function.
-/
import proofs.«122889_j89550068122357_1_alg».proof.Proof.Gen.KernelIdeal.Frame
import Idealize.ShloMosaic.Lib.Pipeline.Value
import proofs.«122889_j89550068122357_1_alg».proof.Proof.LibRowBias
import proofs.«122889_j89550068122357_1_alg».proof.Proof.GnnSpec
import proofs.«122889_j89550068122357_1_alg».proof.Proof.KDots

set_option maxRecDepth 16384

noncomputable section

namespace Cert.KernelIdeal.GnnRegion3

open Cert.KernelIdeal Cert.KernelIdeal.Gen Idealize.ShloMosaic Idealize.ShloMosaic.TcCoe Idealize.SL.Sem
open Idealize.ShloMosaic.ValueIdx Cert.LibDenseLayers Cert.LibRowBias Cert.Gnn Cert.KernelIdeal.GnnDots
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at entry (p, q) of a block: row p of h + a against column q of W, plus the bias row at q,
    rectified. The conversions between float formats are the identity on extended reals. -/
theorem pay_at (v0 : Vec Ideal S10000x64 .bf16) (v3 : Vec Ideal S10000x64 .f32) (v7 : Vec Ideal S64x64 .bf16) (v10 : Vec Ideal S1x64 .f32)
    (p : Fin 10000) (q : Fin 64) :
    k3_pay1 v0 v3 v7 v10 (ix2 p q)
      = max (affineAt (plus (R := 10000) (K := 64) v0 v3) v7 (rowOf v10) p q) (Ideal.ofBits .f32 0x00000000#32) := by
  have e0 : shapeCast S10000x64 v0 shapeCasts_S10000x64_S10000x64 = v0 := shapeCast_self _ _
  have e3 : shapeCast S10000x64 v3 shapeCasts_S10000x64_S10000x64 = v3 := shapeCast_self _ _
  have e7 : shapeCast S64x64 v7 shapeCasts_S64x64_S64x64 = v7 := shapeCast_self _ _
  show max (matmul dot_S10000x64_S64x64_S10000x64_1_0_0_1_n_n none
        (fun i => shapeCast S10000x64 v0 shapeCasts_S10000x64_S10000x64 i + shapeCast S10000x64 v3 shapeCasts_S10000x64_S10000x64 i)
        (shapeCast S64x64 v7 shapeCasts_S64x64_S64x64) (constant (F := Ideal) S10000x64 .f32 0x00000000#32) (ix2 p q)
      + broadcastTo S10000x64 (shapeCast S1x64 v10 shapeCasts_S1x64_S1x64) broadcasts_S1x64_S10000x64 (ix2 p q))
      (Ideal.ofBits .f32 0x00000000#32) = _
  rw [e0, e3, e7]
  exact congrArg (max · (Ideal.ofBits .f32 0x00000000#32))
    (affineAt_of_matmul_row dot_S10000x64_S64x64_S10000x64_1_0_0_1_n_n rfl rfl d64_l0 d64_l1 d64_r0 d64_r1
      shapeCasts_S1x64_S1x64 broadcasts_S1x64_S10000x64 (plus (R := 10000) (K := 64) v0 v3) v7 v10 p q)

/-- The printed index maps, decided over the ten points: the two row-blocked inputs and the output move together, one
    block of rows per point; the weight matrix and the bias are whole at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 10000·t + p of the whole matrix. -/
def row (t : Fin cfg3.N) (p : Fin 10000) : Fin 100000 :=
  ⟨t.val * 10000 + p.val, by have ht : t.val < 10 := lt_of_lt_of_eq t.isLt N_3; have hp := p.isLt; omega⟩

theorem emb0 (t : Fin cfg3.N) (p : Fin 10000) (k : Fin 64) : ((cfg3.win 0).blk t).view.emb (ix2 p k) = ix2 (row t p) k := by
  obtain ⟨e00, e01, -⟩ := idx_facts t
  funext a; apply Fin.ext
  match a with
  | ⟨0, _⟩ => show win3_0.index t (0 : Fin 2) * 10000 + 1 * p.val = t.val * 10000 + p.val; rw [e00]; omega
  | ⟨1, _⟩ => show win3_0.index t (1 : Fin 2) * 64 + 1 * k.val = k.val; rw [e01]; omega

theorem emb1 (t : Fin cfg3.N) (p : Fin 10000) (k : Fin 64) : ((cfg3.win 1).blk t).view.emb (ix2 p k) = ix2 (row t p) k := by
  obtain ⟨-, -, e10, e11, -⟩ := idx_facts t
  funext a; apply Fin.ext
  match a with
  | ⟨0, _⟩ => show win3_1.index t (0 : Fin 2) * 10000 + 1 * p.val = t.val * 10000 + p.val; rw [e10]; omega
  | ⟨1, _⟩ => show win3_1.index t (1 : Fin 2) * 64 + 1 * k.val = k.val; rw [e11]; omega

theorem emb4 (t : Fin cfg3.N) (p : Fin 10000) (q : Fin 64) : ((cfg3.win 4).blk t).view.emb (ix2 p q) = ix2 (row t p) q := by
  obtain ⟨-, -, -, -, -, -, -, -, e40, e41⟩ := idx_facts t
  funext a; apply Fin.ext
  match a with
  | ⟨0, _⟩ => show win3_4.index t (0 : Fin 2) * 10000 + 1 * p.val = t.val * 10000 + p.val; rw [e40]; omega
  | ⟨1, _⟩ => show win3_4.index t (1 : Fin 2) * 64 + 1 * q.val = q.val; rw [e41]; omega

theorem emb2 (t : Fin cfg3.N) (y : S64x64.Idx) : ((cfg3.win 2).blk t).view.emb y = y := by
  obtain ⟨-, -, -, -, e20, e21, -⟩ := idx_facts t
  funext a; apply Fin.ext
  match a with
  | ⟨0, _⟩ => show win3_2.index t (0 : Fin 2) * 64 + 1 * (y 0).val = (y 0).val; rw [e20]; omega
  | ⟨1, _⟩ => show win3_2.index t (1 : Fin 2) * 64 + 1 * (y 1).val = (y 1).val; rw [e21]; omega

theorem emb3 (t : Fin cfg3.N) (y : S1x64.Idx) : ((cfg3.win 3).blk t).view.emb y = y := by
  obtain ⟨-, -, -, -, -, -, e30, e31, -⟩ := idx_facts t
  funext a; apply Fin.ext
  match a with
  | ⟨0, _⟩ => show win3_3.index t (0 : Fin 2) * 1 + 1 * (y 0).val = (y 0).val; rw [e30]; omega
  | ⟨1, _⟩ => show win3_3.index t (1 : Fin 2) * 64 + 1 * (y 1).val = (y 1).val; rw [e31]; omega

/-- The blocks the body loads at point t, read off the arrays the launch finds. -/
theorem blk0 (c : Dev nD) (t : Fin cfg3.N) (p : Fin 10000) (k : Fin 64) :
    iblk3 V c 0 t (ix2 p k) = V c main_v49 (ix2 (row t p) k) := by
  show V c main_v49 (((cfg3.win 0).blk t).view.emb (ix2 p k)) = _
  rw [emb0]
theorem blk1 (c : Dev nD) (t : Fin cfg3.N) (p : Fin 10000) (k : Fin 64) :
    iblk3 V c 1 t (ix2 p k) = V c main_v63 (ix2 (row t p) k) := by
  show V c main_v63 (((cfg3.win 1).blk t).view.emb (ix2 p k)) = _
  rw [emb1]
theorem blk2 (c : Dev nD) (t : Fin cfg3.N) : (iblk3 V c 2 t : S64x64.Idx → EReal) = V c main_v66 := by
  funext y
  show V c main_v66 (((cfg3.win 2).blk t).view.emb y) = _
  rw [emb2]
theorem blk3 (c : Dev nD) (t : Fin cfg3.N) : (iblk3 V c 3 t : S1x64.Idx → EReal) = V c main_v69 := by
  funext y
  show V c main_v69 (((cfg3.win 3).blk t).view.emb y) = _
  rw [emb3]

set_option maxHeartbeats 1000000 in
/-- What point t writes back is block t of the whole-matrix function. -/
theorem flushed_eq (c : Dev nD) (t : Fin cfg3.N) :
    (dat3 (F := Ideal) V c).flushed 4 t
      = ((cfg3.win 4).blk t).view.read (Elt Ideal)
          (combine (R := 100000) (K := 64) (N := 64) (V c main_v49) (V c main_v63) (V c main_v66) (rowOf (N := 64) (V c main_v69))) := by
  show (cfg3.win 4).cut (grid3.coords t) ((dat3 V c).after 4 t) = _
  rw [after3_4]
  unfold out3_4
  rw [View.canon_unit_zero hz2]
  simp only [View.ld_unit_zero (S := S10000x64) hz2, View.ld_unit_zero (S := S64x64) hz2, View.ld_unit_zero (S := S1x64) hz2]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (iblk3 V c 3 t) (ix2 p q)
      = combine (R := 100000) (K := 64) (N := 64) (V c main_v49) (V c main_v63) (V c main_v66) (rowOf (N := 64) (V c main_v69)) (((cfg3.win 4).blk t).view.emb (ix2 p q))
  rw [emb4, combine_apply]
  refine (pay_at (iblk3 V c 0 t) (iblk3 V c 1 t) (iblk3 V c 2 t) (iblk3 V c 3 t) p q).trans ?_
  rw [blk2 V c t, blk3 V c t]
  exact congrArg (max · (Ideal.ofBits .f32 0x00000000#32))
    (affineAt_congr (R := 10000) (R' := 100000) (K := 64) (N := 64)
      (plus (R := 10000) (K := 64) (iblk3 V c 0 t) (iblk3 V c 1 t))
      (plus (R := 100000) (K := 64) (V c main_v49) (V c main_v63))
      (V c main_v66) (rowOf (N := 64) (V c main_v69)) p (row t p)
      (fun k => by
        show plus (R := 10000) (K := 64) (iblk3 V c 0 t) (iblk3 V c 1 t) (ix2 p k) = _
        unfold plus
        rw [blk0 V c t p k, blk1 V c t p k]) q)

/-- An index of the output array is in point t's block iff its row is among the block's 10000 rows. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v70).slice (win3_4.rect t)).set ↔ _
  rw [View.set_slice_whole, Rect.mem_set_unit]
  exact Iff.rfl

/-- Every index is in some point's block: the block of row r is r / 10000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, -, -, e40, e41⟩ := idx_facts t
  have ht : t.val = (i 0).val / 10000 := rfl
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; rw [e40, ht]; omega
  | ⟨1, _⟩ => show win3_4.index t (1 : Fin 2) * 64 ≤ (i 1).val ∧ (i 1).val < win3_4.index t (1 : Fin 2) * 64 + 64; rw [e41]; omega

/-- After the launch the output array is the round's dense half of the arrays the launch found. -/
theorem final (c : Dev nD) :
    (dat3 (F := Ideal) V c).arrAt 4 cfg3.N
      = combine (R := 100000) (K := 64) (N := 64) (V c main_v49) (V c main_v63) (V c main_v66) (rowOf (N := 64) (V c main_v69)) :=
  (dat3 V c).arrAt_eq_of_cover 4 _ (fun t _ => flushed_eq V c t) cover

end Cert.KernelIdeal.GnnRegion3

end
-- ==== Proof.KRegion4.lean ====
/-
  Launch 4 of five (a dense projection) read as ONE function of the arrays it finds: the launch walks ten blocks of 10000
  rows; at block t it loads rows 10000·t … 10000·t + 9999 of the input x, the whole 64 × 32 weight matrix W and the
  one-row bias B, and writes back x · W + B for those rows. Row r of that result depends only on row r of x, so block t
  written back is block t of the whole-matrix function `affine x W (row of B)`, and the ten blocks tile the 100000 rows:
  after the launch the output array IS that function.
-/
import proofs.«122889_j89550068122357_1_alg».proof.Proof.Gen.KernelIdeal.Frame
import Idealize.ShloMosaic.Lib.Pipeline.Value
import proofs.«122889_j89550068122357_1_alg».proof.Proof.LibRowBias
import proofs.«122889_j89550068122357_1_alg».proof.Proof.GnnSpec
import proofs.«122889_j89550068122357_1_alg».proof.Proof.KDots

set_option maxRecDepth 16384

noncomputable section

namespace Cert.KernelIdeal.GnnRegion4

open Cert.KernelIdeal Cert.KernelIdeal.Gen Idealize.ShloMosaic Idealize.ShloMosaic.TcCoe Idealize.SL.Sem
open Idealize.ShloMosaic.ValueIdx Cert.LibDenseLayers Cert.LibRowBias Cert.Gnn Cert.KernelIdeal.GnnDots
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at entry (p, q) of a block: row p of x against column q of W, plus the bias row at q. The
    conversions between float formats are the identity on extended reals. -/
theorem pay_at (v0 : Vec Ideal S10000x64 .bf16) (v2 : Vec Ideal S64x32 .bf16) (v5 : Vec Ideal S1x32 .f32)
    (p : Fin 10000) (q : Fin 32) :
    k4_pay1 v0 v2 v5 (ix2 p q) = affineAt v0 v2 (rowOf v5) p q := by
  have e0 : shapeCast S10000x64 v0 shapeCasts_S10000x64_S10000x64 = v0 := shapeCast_self _ _
  have e2 : shapeCast S64x32 v2 shapeCasts_S64x32_S64x32 = v2 := shapeCast_self _ _
  show matmul dot_S10000x64_S64x32_S10000x32_1_0_0_1_n_n none
        (shapeCast S10000x64 v0 shapeCasts_S10000x64_S10000x64)
        (shapeCast S64x32 v2 shapeCasts_S64x32_S64x32) (constant (F := Ideal) S10000x32 .f32 0x00000000#32) (ix2 p q)
      + broadcastTo S10000x32 (shapeCast S1x32 v5 shapeCasts_S1x32_S1x32) broadcasts_S1x32_S10000x32 (ix2 p q) = _
  rw [e0, e2]
  exact affineAt_of_matmul_row dot_S10000x64_S64x32_S10000x32_1_0_0_1_n_n rfl rfl d32_l0 d32_l1 d32_r0 d32_r1
      shapeCasts_S1x32_S1x32 broadcasts_S1x32_S10000x32 v0 v2 v5 p q

/-- The printed index maps, decided over the ten points: the row-blocked input and the output move together, one block
    of rows per point; the weight matrix and the bias are whole at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of block t is row 10000·t + p of the whole matrix. -/
def row (t : Fin cfg4.N) (p : Fin 10000) : Fin 100000 :=
  ⟨t.val * 10000 + p.val, by have ht : t.val < 10 := lt_of_lt_of_eq t.isLt N_4; have hp := p.isLt; omega⟩

theorem emb0 (t : Fin cfg4.N) (p : Fin 10000) (k : Fin 64) : ((cfg4.win 0).blk t).view.emb (ix2 p k) = ix2 (row t p) k := by
  obtain ⟨e00, e01, -⟩ := idx_facts t
  funext a; apply Fin.ext
  match a with
  | ⟨0, _⟩ => show win4_0.index t (0 : Fin 2) * 10000 + 1 * p.val = t.val * 10000 + p.val; rw [e00]; omega
  | ⟨1, _⟩ => show win4_0.index t (1 : Fin 2) * 64 + 1 * k.val = k.val; rw [e01]; omega

theorem emb3 (t : Fin cfg4.N) (p : Fin 10000) (q : Fin 32) : ((cfg4.win 3).blk t).view.emb (ix2 p q) = ix2 (row t p) q := by
  obtain ⟨-, -, -, -, -, -, e30, e31⟩ := idx_facts t
  funext a; apply Fin.ext
  match a with
  | ⟨0, _⟩ => show win4_3.index t (0 : Fin 2) * 10000 + 1 * p.val = t.val * 10000 + p.val; rw [e30]; omega
  | ⟨1, _⟩ => show win4_3.index t (1 : Fin 2) * 32 + 1 * q.val = q.val; rw [e31]; omega

theorem emb1 (t : Fin cfg4.N) (y : S64x32.Idx) : ((cfg4.win 1).blk t).view.emb y = y := by
  obtain ⟨-, -, e10, e11, -⟩ := idx_facts t
  funext a; apply Fin.ext
  match a with
  | ⟨0, _⟩ => show win4_1.index t (0 : Fin 2) * 64 + 1 * (y 0).val = (y 0).val; rw [e10]; omega
  | ⟨1, _⟩ => show win4_1.index t (1 : Fin 2) * 32 + 1 * (y 1).val = (y 1).val; rw [e11]; omega

theorem emb2 (t : Fin cfg4.N) (y : S1x32.Idx) : ((cfg4.win 2).blk t).view.emb y = y := by
  obtain ⟨-, -, -, -, e20, e21, -⟩ := idx_facts t
  funext a; apply Fin.ext
  match a with
  | ⟨0, _⟩ => show win4_2.index t (0 : Fin 2) * 1 + 1 * (y 0).val = (y 0).val; rw [e20]; omega
  | ⟨1, _⟩ => show win4_2.index t (1 : Fin 2) * 32 + 1 * (y 1).val = (y 1).val; rw [e21]; omega

/-- The blocks the body loads at point t, read off the arrays the launch finds. -/
theorem blk0 (c : Dev nD) (t : Fin cfg4.N) (p : Fin 10000) (k : Fin 64) :
    iblk4 V c 0 t (ix2 p k) = V c main_v70 (ix2 (row t p) k) := by
  show V c main_v70 (((cfg4.win 0).blk t).view.emb (ix2 p k)) = _
  rw [emb0]
theorem blk1 (c : Dev nD) (t : Fin cfg4.N) : (iblk4 V c 1 t : S64x32.Idx → EReal) = V c main_v71 := by
  funext y
  show V c main_v71 (((cfg4.win 1).blk t).view.emb y) = _
  rw [emb1]
theorem blk2 (c : Dev nD) (t : Fin cfg4.N) : (iblk4 V c 2 t : S1x32.Idx → EReal) = V c main_v72 := by
  funext y
  show V c main_v72 (((cfg4.win 2).blk t).view.emb y) = _
  rw [emb2]

/-- What point t writes back is block t of the whole-matrix function. -/
theorem flushed_eq (c : Dev nD) (t : Fin cfg4.N) :
    (dat4 (F := Ideal) V c).flushed 3 t
      = ((cfg4.win 3).blk t).view.read (Elt Ideal) (affine (V c main_v70) (V c main_v71) (rowOf (V c main_v72))) := by
  show (cfg4.win 3).cut (grid4.coords t) ((dat4 V c).after 3 t) = _
  rw [after4_3]
  unfold out4_3
  rw [View.canon_unit_zero hz2]
  simp only [View.ld_unit_zero (S := S10000x64) hz2, View.ld_unit_zero (S := S64x32) hz2, View.ld_unit_zero (S := S1x32) hz2]
  funext j
  obtain ⟨p, q, rfl⟩ : ∃ (p : Fin 10000) (q : Fin 32), j = ix2 p q := ⟨j 0, j 1, eq_ix2 j⟩
  show k4_pay1 (iblk4 V c 0 t) (iblk4 V c 1 t) (iblk4 V c 2 t) (ix2 p q)
      = affine (V c main_v70) (V c main_v71) (rowOf (V c main_v72)) (((cfg4.win 3).blk t).view.emb (ix2 p q))
  rw [emb3]
  refine (pay_at (iblk4 V c 0 t) (iblk4 V c 1 t) (iblk4 V c 2 t) p q).trans ?_
  rw [blk1 V c t, blk2 V c t]
  exact affineAt_congr (iblk4 V c 0 t) (V c main_v70) (V c main_v71) (rowOf (V c main_v72)) p (row t p)
      (fun k => blk0 V c t p k) q

/-- An index of the output array is in point t's block iff its row is among the block's 10000 rows. -/
theorem mem_blk (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v73).slice (win4_3.rect t)).set ↔ _
  rw [View.set_slice_whole, Rect.mem_set_unit]
  exact Iff.rfl

/-- Every index is in some point's block: the block of row r is r / 10000. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 10 := N_4
  let t : Fin cfg4.N := ⟨(i 0).val / 10000, by rw [hN]; omega⟩
  obtain ⟨-, -, -, -, -, -, e30, e31⟩ := idx_facts t
  have ht : t.val = (i 0).val / 10000 := rfl
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; rw [e30, ht]; omega
  | ⟨1, _⟩ => show win4_3.index t (1 : Fin 2) * 32 ≤ (i 1).val ∧ (i 1).val < win4_3.index t (1 : Fin 2) * 32 + 32; rw [e31]; omega

/-- After the launch the output array is the projection of the arrays the launch found. -/
theorem final (c : Dev nD) :
    (dat4 (F := Ideal) V c).arrAt 3 cfg4.N = affine (V c main_v70) (V c main_v71) (rowOf (V c main_v72)) :=
  (dat4 V c).arrAt_eq_of_cover 3 _ (fun t _ => flushed_eq V c t) cover

end Cert.KernelIdeal.GnnRegion4

end
-- ==== Proof.KValue.lean ====
/-
  The idealized kernel program's result as the specification's network. The contents of the buffers at the ten segment
  boundaries are a fold from the launch memory: a host stretch rewrites the buffers its operations write and keeps the
  rest; a launch rewrites its output array to the whole-matrix function of the arrays it found and keeps the rest. Walking
  the fold: the sources, the destinations and the argument arrays are carried unchanged to wherever they are read; the
  features after each launch are the specification's; the last launch's output is the network's result. On extended
  reals the conversions to the short float format are the identity, and a vector laid out as one row has itself as row.
-/
import proofs.«122889_j89550068122357_1_alg».proof.Proof.Gen.KernelIdeal.Frame
import proofs.«122889_j89550068122357_1_alg».proof.Proof.KHost
import proofs.«122889_j89550068122357_1_alg».proof.Proof.KRegion0
import proofs.«122889_j89550068122357_1_alg».proof.Proof.KRegion1
import proofs.«122889_j89550068122357_1_alg».proof.Proof.KRegion2
import proofs.«122889_j89550068122357_1_alg».proof.Proof.KRegion3
import proofs.«122889_j89550068122357_1_alg».proof.Proof.KRegion4

set_option maxRecDepth 16384

noncomputable section

namespace Cert.KernelIdeal.GnnValue

open Cert.KernelIdeal Cert.KernelIdeal.Gen Cert.KernelIdeal.GnnHost Idealize.ShloMosaic Idealize.ShloMosaic.TcCoe Idealize.SL.Sem
open Idealize.ShloMosaic.ValueIdx Cert.LibDenseLayers Cert.LibRowBias Cert.Gnn

variable (m : (ℓ : Loc nD τ sig) → Buf (Elt Ideal) ℓ) (ρ : Dev nD → PrngReg) (c : Dev nD)

/-- What every boundary after the first host stretch still holds of the launch memory: the edges' sources and
    destinations, and the argument arrays read later. -/
structure Carried (W : Valuation τ sig (Elt Ideal)) : Prop where
  v1 : W (Proc.devRef .tc main_v1) = srcOf (m ((c : Thread nD τ).loc main_arg1))
  v3 : W (Proc.devRef .tc main_v3) = dstOf (m ((c : Thread nD τ).loc main_arg1))
  arg2 : W (Proc.devRef .tc main_arg2) = (m ((c : Thread nD τ).loc main_arg2))
  arg5 : W (Proc.devRef .tc main_arg5) = (m ((c : Thread nD τ).loc main_arg5))
  arg6 : W (Proc.devRef .tc main_arg6) = (m ((c : Thread nD τ).loc main_arg6))
  arg7 : W (Proc.devRef .tc main_arg7) = (m ((c : Thread nD τ).loc main_arg7))
  arg8 : W (Proc.devRef .tc main_arg8) = (m ((c : Thread nD τ).loc main_arg8))

theorem carried1 : Carried m c (W1 m ρ c) :=
  ⟨src_h0 (W0 m ρ c), dst_h0 (W0 m ρ c), keep0_arg2 (W0 m ρ c), keep0_arg5 (W0 m ρ c), keep0_arg6 (W0 m ρ c), keep0_arg7 (W0 m ρ c), keep0_arg8 (W0 m ρ c)⟩
theorem carried2 : Carried m c (W2 m ρ c) :=
  have h := carried1 m ρ c
  ⟨(W2_of_ne m ρ c main_v1 (by decide)).trans h.v1,
   (W2_of_ne m ρ c main_v3 (by decide)).trans h.v3,
   (W2_of_ne m ρ c main_arg2 (by decide)).trans h.arg2,
   (W2_of_ne m ρ c main_arg5 (by decide)).trans h.arg5,
   (W2_of_ne m ρ c main_arg6 (by decide)).trans h.arg6,
   (W2_of_ne m ρ c main_arg7 (by decide)).trans h.arg7,
   (W2_of_ne m ρ c main_arg8 (by decide)).trans h.arg8⟩
theorem carried3 : Carried m c (W3 m ρ c) :=
  have h := carried2 m ρ c
  ⟨(keep1_v1 (W2 m ρ c)).trans h.v1,
   (keep1_v3 (W2 m ρ c)).trans h.v3,
   (keep1_arg2 (W2 m ρ c)).trans h.arg2,
   (keep1_arg5 (W2 m ρ c)).trans h.arg5,
   (keep1_arg6 (W2 m ρ c)).trans h.arg6,
   (keep1_arg7 (W2 m ρ c)).trans h.arg7,
   (keep1_arg8 (W2 m ρ c)).trans h.arg8⟩
theorem carried4 : Carried m c (W4 m ρ c) :=
  have h := carried3 m ρ c
  ⟨(W4_of_ne m ρ c main_v1 (by decide)).trans h.v1,
   (W4_of_ne m ρ c main_v3 (by decide)).trans h.v3,
   (W4_of_ne m ρ c main_arg2 (by decide)).trans h.arg2,
   (W4_of_ne m ρ c main_arg5 (by decide)).trans h.arg5,
   (W4_of_ne m ρ c main_arg6 (by decide)).trans h.arg6,
   (W4_of_ne m ρ c main_arg7 (by decide)).trans h.arg7,
   (W4_of_ne m ρ c main_arg8 (by decide)).trans h.arg8⟩
theorem carried5 : Carried m c (W5 m ρ c) :=
  have h := carried4 m ρ c
  ⟨(keep2_v1 (W4 m ρ c)).trans h.v1,
   (keep2_v3 (W4 m ρ c)).trans h.v3,
   (keep2_arg2 (W4 m ρ c)).trans h.arg2,
   (keep2_arg5 (W4 m ρ c)).trans h.arg5,
   (keep2_arg6 (W4 m ρ c)).trans h.arg6,
   (keep2_arg7 (W4 m ρ c)).trans h.arg7,
   (keep2_arg8 (W4 m ρ c)).trans h.arg8⟩
theorem carried6 : Carried m c (W6 m ρ c) :=
  have h := carried5 m ρ c
  ⟨(W6_of_ne m ρ c main_v1 (by decide)).trans h.v1,
   (W6_of_ne m ρ c main_v3 (by decide)).trans h.v3,
   (W6_of_ne m ρ c main_arg2 (by decide)).trans h.arg2,
   (W6_of_ne m ρ c main_arg5 (by decide)).trans h.arg5,
   (W6_of_ne m ρ c main_arg6 (by decide)).trans h.arg6,
   (W6_of_ne m ρ c main_arg7 (by decide)).trans h.arg7,
   (W6_of_ne m ρ c main_arg8 (by decide)).trans h.arg8⟩
theorem carried7 : Carried m c (W7 m ρ c) :=
  have h := carried6 m ρ c
  ⟨(keep3_v1 (W6 m ρ c)).trans h.v1,
   (keep3_v3 (W6 m ρ c)).trans h.v3,
   (keep3_arg2 (W6 m ρ c)).trans h.arg2,
   (keep3_arg5 (W6 m ρ c)).trans h.arg5,
   (keep3_arg6 (W6 m ρ c)).trans h.arg6,
   (keep3_arg7 (W6 m ρ c)).trans h.arg7,
   (keep3_arg8 (W6 m ρ c)).trans h.arg8⟩
theorem carried8 : Carried m c (W8 m ρ c) :=
  have h := carried7 m ρ c
  ⟨(W8_of_ne m ρ c main_v1 (by decide)).trans h.v1,
   (W8_of_ne m ρ c main_v3 (by decide)).trans h.v3,
   (W8_of_ne m ρ c main_arg2 (by decide)).trans h.arg2,
   (W8_of_ne m ρ c main_arg5 (by decide)).trans h.arg5,
   (W8_of_ne m ρ c main_arg6 (by decide)).trans h.arg6,
   (W8_of_ne m ρ c main_arg7 (by decide)).trans h.arg7,
   (W8_of_ne m ρ c main_arg8 (by decide)).trans h.arg8⟩

/-- The aggregation step of this program over the launch memory's edge list and weights. -/
def aggOf (h : (⟨2, ![100000, 64]⟩ : Shape).Idx → EReal) : (⟨2, ![100000, 64]⟩ : Shape).Idx → EReal :=
  aggK h (srcOf (m ((c : Thread nD τ).loc main_arg1))) (dstOf (m ((c : Thread nD τ).loc main_arg1))) (m ((c : Thread nD τ).loc main_arg2))

/-- The features after the input projection, and after each round. -/
def feat0 : (⟨2, ![100000, 64]⟩ : Shape).Idx → EReal := affine (m ((c : Thread nD τ).loc main_arg0)) (m ((c : Thread nD τ).loc main_arg3)) (m ((c : Thread nD τ).loc main_arg4))
def feat1 : (⟨2, ![100000, 64]⟩ : Shape).Idx → EReal :=
  combine (feat0 m c) (aggOf m c (feat0 m c)) (wOf0 (m ((c : Thread nD τ).loc main_arg5))) (rowOf (bOf0 (m ((c : Thread nD τ).loc main_arg6))))
def feat2 : (⟨2, ![100000, 64]⟩ : Shape).Idx → EReal :=
  combine (feat1 m c) (aggOf m c (feat1 m c)) (wOf1 (m ((c : Thread nD τ).loc main_arg5))) (rowOf (bOf1 (m ((c : Thread nD τ).loc main_arg6))))
def feat3 : (⟨2, ![100000, 64]⟩ : Shape).Idx → EReal :=
  combine (feat2 m c) (aggOf m c (feat2 m c)) (wOf2 (m ((c : Thread nD τ).loc main_arg5))) (rowOf (bOf2 (m ((c : Thread nD τ).loc main_arg6))))

/-- After the first launch: the input projection. -/
theorem after0 : W2 m ρ c (Proc.devRef .tc main_v7) = feat0 m c := by
  have h4 : V1 m ρ c main_v4 = (m ((c : Thread nD τ).loc main_arg0)) := x_h0 (W0 m ρ c)
  have h5 : V1 m ρ c main_v5 = (m ((c : Thread nD τ).loc main_arg3)) := w_h0 (W0 m ρ c)
  have h6 : rowOf (V1 m ρ c main_v6) = (m ((c : Thread nD τ).loc main_arg4)) := (congrArg rowOf (b_h0 (W0 m ρ c))).trans (rowOf_shapeCast _ _)
  refine (W2_arr m ρ c 3).trans ((GnnRegion0.final (V1 m ρ) c).trans ?_)
  rw [h4, h5, h6]; rfl

/-- After launch 1: round 0's features. -/
theorem after1 : W4 m ρ c (Proc.devRef .tc main_v28) = feat1 m c := by
  have hc := carried2 m ρ c
  have hh : V3 m ρ c main_v7 = feat0 m c := (keep1_v7 (W2 m ρ c)).trans (after0 m ρ c)
  have ha : V3 m ρ c main_v21 = aggOf m c (feat0 m c) := by
    refine (agg1 (W2 m ρ c)).trans ?_
    rw [after0 m ρ c, hc.v1, hc.v3, hc.arg2]; rfl
  have hW : V3 m ρ c main_v24 = wOf0 (m ((c : Thread nD τ).loc main_arg5)) := (weight1 (W2 m ρ c)).trans (by rw [hc.arg5])
  have hb : V3 m ρ c main_v27 = bOf0 (m ((c : Thread nD τ).loc main_arg6)) := (bias1 (W2 m ρ c)).trans (by rw [hc.arg6])
  refine (W4_arr m ρ c 4).trans ((GnnRegion1.final (V3 m ρ) c).trans ?_)
  rw [hh, ha, hW, hb]; rfl

/-- After launch 2: round 1's features. -/
theorem after2 : W6 m ρ c (Proc.devRef .tc main_v49) = feat2 m c := by
  have hc := carried4 m ρ c
  have hh : V5 m ρ c main_v28 = feat1 m c := (keep2_v28 (W4 m ρ c)).trans (after1 m ρ c)
  have ha : V5 m ρ c main_v42 = aggOf m c (feat1 m c) := by
    refine (agg2 (W4 m ρ c)).trans ?_
    rw [after1 m ρ c, hc.v1, hc.v3, hc.arg2]; rfl
  have hW : V5 m ρ c main_v45 = wOf1 (m ((c : Thread nD τ).loc main_arg5)) := (weight2 (W4 m ρ c)).trans (by rw [hc.arg5])
  have hb : V5 m ρ c main_v48 = bOf1 (m ((c : Thread nD τ).loc main_arg6)) := (bias2 (W4 m ρ c)).trans (by rw [hc.arg6])
  refine (W6_arr m ρ c 4).trans ((GnnRegion2.final (V5 m ρ) c).trans ?_)
  rw [hh, ha, hW, hb]; rfl

/-- After launch 3: round 2's features. -/
theorem after3 : W8 m ρ c (Proc.devRef .tc main_v70) = feat3 m c := by
  have hc := carried6 m ρ c
  have hh : V7 m ρ c main_v49 = feat2 m c := (keep3_v49 (W6 m ρ c)).trans (after2 m ρ c)
  have ha : V7 m ρ c main_v63 = aggOf m c (feat2 m c) := by
    refine (agg3 (W6 m ρ c)).trans ?_
    rw [after2 m ρ c, hc.v1, hc.v3, hc.arg2]; rfl
  have hW : V7 m ρ c main_v66 = wOf2 (m ((c : Thread nD τ).loc main_arg5)) := (weight3 (W6 m ρ c)).trans (by rw [hc.arg5])
  have hb : V7 m ρ c main_v69 = bOf2 (m ((c : Thread nD τ).loc main_arg6)) := (bias3 (W6 m ρ c)).trans (by rw [hc.arg6])
  refine (W8_arr m ρ c 4).trans ((GnnRegion3.final (V7 m ρ) c).trans ?_)
  rw [hh, ha, hW, hb]; rfl

/-- After the last launch: the network's result. -/
theorem result : W10 m ρ c (Proc.devRef .tc main_v73)
    = gnn (aggOf m c) (m ((c : Thread nD τ).loc main_arg0)) (m ((c : Thread nD τ).loc main_arg3)) (m ((c : Thread nD τ).loc main_arg4)) (wOf0 (m ((c : Thread nD τ).loc main_arg5))) (rowOf (bOf0 (m ((c : Thread nD τ).loc main_arg6)))) (wOf1 (m ((c : Thread nD τ).loc main_arg5))) (rowOf (bOf1 (m ((c : Thread nD τ).loc main_arg6))))
        (wOf2 (m ((c : Thread nD τ).loc main_arg5))) (rowOf (bOf2 (m ((c : Thread nD τ).loc main_arg6)))) (m ((c : Thread nD τ).loc main_arg7)) (m ((c : Thread nD τ).loc main_arg8)) := by
  have hc := carried8 m ρ c
  have hh : V9 m ρ c main_v70 = feat3 m c := (keep4_v70 (W8 m ρ c)).trans (after3 m ρ c)
  have hW : V9 m ρ c main_v71 = (m ((c : Thread nD τ).loc main_arg7)) := (wout4 (W8 m ρ c)).trans (by rw [hc.arg7]; rfl)
  have hb : rowOf (V9 m ρ c main_v72) = (m ((c : Thread nD τ).loc main_arg8)) :=
    (congrArg rowOf ((bout4 (W8 m ρ c)).trans (by rw [hc.arg8]))).trans (rowOf_shapeCast _ _)
  refine (W10_arr m ρ c 3).trans ((GnnRegion4.final (V9 m ρ) c).trans ?_)
  rw [hh, hW, hb]; rfl

end Cert.KernelIdeal.GnnValue

end
-- ==== Proof.RValue.lean ====
/-
  The reference program's result as the specification's network. The reference computes, with host operations only,
  x · W_in + b_in, then three times: the aggregate of the current features over the edges (gather the source rows, scale
  by the edge weights, scatter-add into the destination rows), the sum of features and aggregate times the layer's
  weight matrix plus its bias, rectified; and last the output projection. Each dot_general plus twice-broadcast bias
  is an affine layer (the sum over the contracted axis, re-indexed); the aggregate is kept as ONE function `aggR` of the
  features — it is never read at an index.
-/
import proofs.«122889_j89550068122357_1_alg».proof.Proof.Gen.ReferenceIdeal.Read
import proofs.«122889_j89550068122357_1_alg».proof.Proof.GnnSpec

set_option maxRecDepth 16384

noncomputable section

namespace Cert.ReferenceIdeal.GnnRef

open Cert.ReferenceIdeal Cert.ReferenceIdeal.Gen Cert.ReferenceIdeal.Read Idealize.ShloMosaic Idealize.ShloMosaic.TcCoe Idealize.SL.Sem
open Idealize.ShloMosaic.ValueIdx Cert.LibDenseLayers Cert.Gnn

/-- The aggregation step over the edge list x1 with edge weights x2, as a function of the features h: the source rows
    gathered (a negative source number counted from the end), row e scaled by weight e, scatter-added from zero into the
    destination rows. -/
def aggR (x1 : (⟨S2x3200000, .i32⟩ : BufTy).Contents (Elt Ideal)) (x2 : (⟨S3200000, .f32⟩ : BufTy).Contents (Elt Ideal)) (h : (⟨S100000x64, .f32⟩ : BufTy).Contents (Elt Ideal)) : (⟨S100000x64, .f32⟩ : BufTy).Contents (Elt Ideal) :=
  Host.scatterAdd (F := Ideal) (φ := .f32) scatter_S100000x64_S3200000x1_S3200000x64_1_0_0_1 (val_main_v18 (F := Ideal)) (val_main_v19 (F := Ideal) x1)
    (mulf (F := Ideal) (φ := .f32) (Host.gather (α := Ideal .f32) gather_S100000x64_S3200000x1_S3200000x64_1_0_n_n_0_1_164 h (val_main_v13 (F := Ideal) x1)) (val_main_v16 (F := Ideal) x2))

/-- The input projection. -/
theorem input_eq (x0 : (⟨S100000x128, .f32⟩ : BufTy).Contents (Elt Ideal)) (x3 : (⟨S128x64, .f32⟩ : BufTy).Contents (Elt Ideal)) (x4 : (⟨S64, .f32⟩ : BufTy).Contents (Elt Ideal)) :
    val_main_v3 (F := Ideal) x0 x3 x4 = affine x0 x3 x4 := by
  unfold val_main_v3 val_main_v0 val_main_v2 val_main_v1
  exact affine_of_dot (by decide) dot_S100000x128_S128x64_S100000x64_1_0_0_1_n_n rfl rfl lhs_main_v0_0 lhs_main_v0_1 rhs_main_v0_0 rhs_main_v0_1
    bcast_S64_S1x64_1 bcast_S1x64_S100000x64_0_1 x0 x3 x4

/-- Round 0's aggregate is the shared aggregation step applied to the round's features. -/
theorem agg0_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) :
    val_main_v20 (F := Ideal) x0 x1 x2 x3 x4 = aggR x1 x2 (val_main_v3 (F := Ideal) x0 x3 x4) := rfl

/-- Round 0: the features after it are the round's dense half of the features before it and their aggregate. -/
theorem round0_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) :
    val_main_v30 (F := Ideal) x0 x1 x2 x3 x4 x5 x6
      = combine (val_main_v3 (F := Ideal) x0 x3 x4) (val_main_v20 (F := Ideal) x0 x1 x2 x3 x4) (val_main_v23 (F := Ideal) x5) (val_main_v26 (F := Ideal) x6) := by
  unfold val_main_v30 val_main_v29 val_main_v24 val_main_v21 val_main_v28 val_main_v27 val_main_call0_v0 val_main_call0_cst
  rw [affine_of_dot (by decide) dot_S100000x64_S64x64_S100000x64_1_0_0_1_n_n rfl rfl lhs_main_v24_0 lhs_main_v24_1 rhs_main_v24_0 rhs_main_v24_1
    bcast_S64_S1x64_1 bcast_S1x64_S100000x64_0_1]
  rfl

/-- Round 1's aggregate is the shared aggregation step applied to the round's features. -/
theorem agg1_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) :
    val_main_v43 (F := Ideal) x0 x1 x2 x3 x4 x5 x6 = aggR x1 x2 (val_main_v30 (F := Ideal) x0 x1 x2 x3 x4 x5 x6) := rfl

/-- Round 1: the features after it are the round's dense half of the features before it and their aggregate. -/
theorem round1_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) :
    val_main_v53 (F := Ideal) x0 x1 x2 x3 x4 x5 x6
      = combine (val_main_v30 (F := Ideal) x0 x1 x2 x3 x4 x5 x6) (val_main_v43 (F := Ideal) x0 x1 x2 x3 x4 x5 x6) (val_main_v46 (F := Ideal) x5) (val_main_v49 (F := Ideal) x6) := by
  unfold val_main_v53 val_main_v52 val_main_v47 val_main_v44 val_main_v51 val_main_v50 val_main_call1_v0 val_main_call1_cst
  rw [affine_of_dot (by decide) dot_S100000x64_S64x64_S100000x64_1_0_0_1_n_n rfl rfl lhs_main_v47_0 lhs_main_v47_1 rhs_main_v47_0 rhs_main_v47_1
    bcast_S64_S1x64_1 bcast_S1x64_S100000x64_0_1]
  rfl

/-- Round 2's aggregate is the shared aggregation step applied to the round's features. -/
theorem agg2_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) :
    val_main_v66 (F := Ideal) x0 x1 x2 x3 x4 x5 x6 = aggR x1 x2 (val_main_v53 (F := Ideal) x0 x1 x2 x3 x4 x5 x6) := rfl

/-- Round 2: the features after it are the round's dense half of the features before it and their aggregate. -/
theorem round2_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) :
    val_main_v76 (F := Ideal) x0 x1 x2 x3 x4 x5 x6
      = combine (val_main_v53 (F := Ideal) x0 x1 x2 x3 x4 x5 x6) (val_main_v66 (F := Ideal) x0 x1 x2 x3 x4 x5 x6) (val_main_v69 (F := Ideal) x5) (val_main_v72 (F := Ideal) x6) := by
  unfold val_main_v76 val_main_v75 val_main_v70 val_main_v67 val_main_v74 val_main_v73 val_main_call2_v0 val_main_call2_cst
  rw [affine_of_dot (by decide) dot_S100000x64_S64x64_S100000x64_1_0_0_1_n_n rfl rfl lhs_main_v70_0 lhs_main_v70_1 rhs_main_v70_0 rhs_main_v70_1
    bcast_S64_S1x64_1 bcast_S1x64_S100000x64_0_1]
  rfl

/-- The output projection. -/
theorem output_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S64x32, .f32⟩ : BufTy).Contents (Elt Ideal)) (x8 : (⟨S32, .f32⟩ : BufTy).Contents (Elt Ideal)) :
    val_main_v80 (F := Ideal) x0 x1 x2 x3 x4 x5 x6 x7 x8 = affine (val_main_v76 (F := Ideal) x0 x1 x2 x3 x4 x5 x6) x7 x8 := by
  unfold val_main_v80 val_main_v77 val_main_v79 val_main_v78
  exact affine_of_dot (by decide) dot_S100000x64_S64x32_S100000x32_1_0_0_1_n_n rfl rfl lhs_main_v77_0 lhs_main_v77_1 rhs_main_v77_0 rhs_main_v77_1
    bcast_S32_S1x32_1 bcast_S1x32_S100000x32_0_1 _ x7 x8

/-- The reference's result is the network of the specification, with `aggR` as its aggregation step and the layers'
    weight matrices and biases cut out of the stacked arrays. -/
theorem result_eq (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S64x32, .f32⟩ : BufTy).Contents (Elt Ideal)) (x8 : (⟨S32, .f32⟩ : BufTy).Contents (Elt Ideal)) :
    val_main_v80 (F := Ideal) x0 x1 x2 x3 x4 x5 x6 x7 x8
      = gnn (aggR x1 x2) x0 x3 x4 (val_main_v23 (F := Ideal) x5) (val_main_v26 (F := Ideal) x6)
          (val_main_v46 (F := Ideal) x5) (val_main_v49 (F := Ideal) x6) (val_main_v69 (F := Ideal) x5) (val_main_v72 (F := Ideal) x6) x7 x8 := by
  rw [output_eq, round2_eq, agg2_eq, round1_eq, agg1_eq, round0_eq, agg0_eq, input_eq]
  rfl

end Cert.ReferenceIdeal.GnnRef

end
-- ==== Proof.Bridge.lean ====
/-
  The two programs compute one function. Both cut the layers' weight matrices and biases out of the stacked arrays by
  the same slices; both aggregate over the edges by the same gather, scaling and scatter-add — in the kernel program
  the features pass through the short float format on the way, which on extended reals is no change —; and the
  kernel program keeps each bias as a one-row matrix whose row is the bias. So the network of the specification is
  instantiated by both at the same arguments.
-/
import proofs.«122889_j89550068122357_1_alg».proof.Proof.KValue
import proofs.«122889_j89550068122357_1_alg».proof.Proof.RValue

set_option maxRecDepth 16384

noncomputable section

namespace Cert.Proof.GnnBridge

open Idealize.ShloMosaic Idealize.ShloMosaic.TcCoe Idealize.SL.Sem
open Idealize.ShloMosaic.ValueIdx Cert.LibDenseLayers Cert.LibRowBias Cert.Gnn
open Cert.KernelIdeal.GnnHost Cert.ReferenceIdeal.GnnRef Cert.ReferenceIdeal.Read

/-- The aggregation steps of the two programs are one function of the edge list, the edge weights and the features. -/
theorem agg_eq (ei : (⟨Cert.KernelIdeal.S2x3200000, .i32⟩ : BufTy).Contents (Elt Ideal)) (ew : (⟨Cert.KernelIdeal.S3200000, .f32⟩ : BufTy).Contents (Elt Ideal))
    (h : (⟨2, ![100000, 64]⟩ : Shape).Idx → EReal) :
    aggK h (srcOf ei) (dstOf ei) ew = aggR ei ew h := rfl

theorem w0_eq (w : (⟨Cert.KernelIdeal.S3x64x64, .f32⟩ : BufTy).Contents (Elt Ideal)) : wOf0 w = val_main_v23 (F := Ideal) w := rfl
theorem w1_eq (w : (⟨Cert.KernelIdeal.S3x64x64, .f32⟩ : BufTy).Contents (Elt Ideal)) : wOf1 w = val_main_v46 (F := Ideal) w := rfl
theorem w2_eq (w : (⟨Cert.KernelIdeal.S3x64x64, .f32⟩ : BufTy).Contents (Elt Ideal)) : wOf2 w = val_main_v69 (F := Ideal) w := rfl
theorem b0_eq (b : (⟨Cert.KernelIdeal.S3x64, .f32⟩ : BufTy).Contents (Elt Ideal)) : rowOf (N := 64) (bOf0 b) = val_main_v26 (F := Ideal) b :=
  rowOf_shapeCast _ _
theorem b1_eq (b : (⟨Cert.KernelIdeal.S3x64, .f32⟩ : BufTy).Contents (Elt Ideal)) : rowOf (N := 64) (bOf1 b) = val_main_v49 (F := Ideal) b :=
  rowOf_shapeCast _ _
theorem b2_eq (b : (⟨Cert.KernelIdeal.S3x64, .f32⟩ : BufTy).Contents (Elt Ideal)) : rowOf (N := 64) (bOf2 b) = val_main_v72 (F := Ideal) b :=
  rowOf_shapeCast _ _

/-- The kernel program's result term is the reference's, at the same argument arrays. -/
theorem result_eq (m : (ℓ : Loc Cert.KernelIdeal.nD Cert.KernelIdeal.τ Cert.KernelIdeal.sig) → Buf (Elt Ideal) ℓ) (c : Dev Cert.KernelIdeal.nD) :
    gnn (Cert.KernelIdeal.GnnValue.aggOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (wOf0 (m ((c.tc : Thread Cert.KernelIdeal.nD Cert.KernelIdeal.τ).loc Cert.KernelIdeal.main_arg5))) (rowOf (N := 64) (bOf0 (m ((c.tc : Thread Cert.KernelIdeal.nD Cert.KernelIdeal.τ).loc Cert.KernelIdeal.main_arg6))))
        (wOf1 (m ((c.tc : Thread Cert.KernelIdeal.nD Cert.KernelIdeal.τ).loc Cert.KernelIdeal.main_arg5))) (rowOf (N := 64) (bOf1 (m ((c.tc : Thread Cert.KernelIdeal.nD Cert.KernelIdeal.τ).loc Cert.KernelIdeal.main_arg6)))) (wOf2 (m ((c.tc : Thread Cert.KernelIdeal.nD Cert.KernelIdeal.τ).loc Cert.KernelIdeal.main_arg5))) (rowOf (N := 64) (bOf2 (m ((c.tc : Thread Cert.KernelIdeal.nD Cert.KernelIdeal.τ).loc Cert.KernelIdeal.main_arg6)))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  have ha : Cert.KernelIdeal.GnnValue.aggOf m c = aggR (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := funext fun h => agg_eq _ _ h
  rw [Cert.ReferenceIdeal.GnnRef.result_eq, ha, w0_eq, w1_eq, w2_eq, b0_eq, b1_eq, b2_eq]

end Cert.Proof.GnnBridge

end
-- ==== Proof.lean ====
/-
  The certificate of a three-round message-passing network on 100000 nodes and 3200000 edges.

  The kernel program runs the dense halves (the input projection x · W_in + b_in, three times
  rectifier((h + a) · W_l + b_l), the output projection) as five kernel launches, each tiled over ten blocks of 10000
  rows, and the aggregation a = A(h) — gather the edges' source rows, scale by the edge weights, scatter-add into the
  destination rows — as host operations between the launches. The reference runs everything as host operations.
  On extended reals: each launch's output array is ONE whole-matrix function of the arrays the launch finds, because a
  dense layer's row r depends only on row r of its input and the ten blocks tile the rows; the matrix unit's product into
  a zero accumulator and the host's dot_general are the same sum over the contracted axis; the conversions to the short
  float format are the identity; and the aggregation is the same function in both programs, so it is carried as one
  function and never opened. No law of arithmetic beyond re-indexing a finite sum is used: the precondition is not needed.
-/
import proofs.«122889_j89550068122357_1_alg».proof.Defs
import proofs.«122889_j89550068122357_1_alg».proof.Proof.Gen.Kernel
import proofs.«122889_j89550068122357_1_alg».proof.Proof.Gen.Kernel.Frame
import proofs.«122889_j89550068122357_1_alg».proof.Proof.Gen.KernelIdeal
import proofs.«122889_j89550068122357_1_alg».proof.Proof.Gen.KernelIdeal.Frame
import proofs.«122889_j89550068122357_1_alg».proof.Proof.Gen.ReferenceIdeal
import proofs.«122889_j89550068122357_1_alg».proof.Proof.Gen.ReferenceIdeal.Run
import proofs.«122889_j89550068122357_1_alg».proof.Proof.Gen.ReferenceIdeal.Read
import proofs.«122889_j89550068122357_1_alg».proof.Proof.Gen.Pre_finite_inputs
import proofs.«122889_j89550068122357_1_alg».proof.Proof.KRun
import proofs.«122889_j89550068122357_1_alg».proof.Proof.KValue
import proofs.«122889_j89550068122357_1_alg».proof.Proof.RValue
import proofs.«122889_j89550068122357_1_alg».proof.Proof.Bridge

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network's result of the argument arrays. -/
theorem algebraic : Cert.algebraic_KernelIdeal_ReferenceIdeal := by
  intro m ρ m' ρ' _ hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans ((Cert.KernelIdeal.GnnValue.result m ρ c).trans (Cert.Proof.GnnBridge.result_eq m c)), (h c).2⟩)
      (Cert.KernelIdeal.GnnRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v80_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
